-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1 : Shape := ⟨3, ![8, 2048, 1]⟩
abbrev S8x2048x512 : Shape := ⟨3, ![8, 2048, 512]⟩
abbrev S1x2048x1 : Shape := ⟨3, ![1, 2048, 1]⟩
abbrev S_ : Shape := ⟨0, ![]⟩

class Facts : Prop where
  bcast_S_S8x2048x1 : S_.BroadcastsInDim S8x2048x1 (![] : Fin 0 → Fin S8x2048x1.rank)
  reducesTo_S8x2048x1_S_d0_1_2 : S8x2048x1.ReducesTo [0, 1, 2] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bcast_S_S1x2048x1 : S_.BroadcastsInDim S1x2048x1 (![] : Fin 0 → Fin S1x2048x1.rank)
  reducesTo_S1x2048x1_S_d0_1_2 : S1x2048x1.ReducesTo [0, 1, 2] S_

variable [Facts]

def fn {F : FTy → Type} [FloatOps F] (main_arg0 : FVec F S8x2048x1 .f32) (main_arg1 : FVec F S8x2048x512 .f32) (main_arg2 : FVec F S1x2048x1 .f32) : IVec S_ 1 :=
  let main_v0 : FVec F S8x2048x1 .f32 := Host.absf main_arg0
  let main_cst : FVec F S_ .f32 := constant S_ .f32 0x7F800000#32
  let main_v1 : FVec F S8x2048x1 .f32 := broadcastInDim S8x2048x1 ![] bcast_S_S8x2048x1 main_cst
  let main_v2 : IVec S8x2048x1 1 := cmpf .olt main_v0 main_v1
  let main_c : IVec S_ 1 := constantI S_ 1 1#1
  let main_v3 : IVec S_ 1 := (fun x v => Host.reduce IntOp.andi x v reducesTo_S8x2048x1_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S1x2048x1 .f32 := Host.absf main_arg2
  let main_cst_2 : FVec F S_ .f32 := constant S_ .f32 0x7F800000#32
  let main_v10 : FVec F S1x2048x1 .f32 := broadcastInDim S1x2048x1 ![] bcast_S_S1x2048x1 main_cst_2
  let main_v11 : IVec S1x2048x1 1 := cmpf .olt main_v9 main_v10
  let main_c_3 : IVec S_ 1 := constantI S_ 1 1#1
  let main_v12 : IVec S_ 1 := (fun x v => Host.reduce IntOp.andi x v reducesTo_S1x2048x1_S_d0_1_2 h_S_) main_v11 main_c_3
  let main_v13 : IVec S_ 1 := andi main_v8 main_v12
  main_v13
-- ==== Kernel.lean ====
abbrev S8x2048x1 : Shape := ⟨3, ![8, 2048, 1]⟩
abbrev S8x2048x512 : Shape := ⟨3, ![8, 2048, 512]⟩
abbrev S1x2048x1 : Shape := ⟨3, ![1, 2048, 1]⟩
abbrev S1x1x2048 : Shape := ⟨3, ![1, 1, 2048]⟩
abbrev S4x8x128 : Shape := ⟨3, ![4, 8, 128]⟩
abbrev S8x512x1 : Shape := ⟨3, ![8, 512, 1]⟩
abbrev S1x1x128 : Shape := ⟨3, ![1, 1, 128]⟩
abbrev S8x128x512 : Shape := ⟨3, ![8, 128, 512]⟩
abbrev S8x512x512 : Shape := ⟨3, ![8, 512, 512]⟩
abbrev S1x8x128 : Shape := ⟨3, ![1, 8, 128]⟩
abbrev S8x512x128 : Shape := ⟨3, ![8, 512, 128]⟩
abbrev S8x512 : Shape := ⟨2, ![8, 512]⟩
abbrev S8x1 : Shape := ⟨2, ![8, 1]⟩
abbrev S8x1x1 : Shape := ⟨3, ![8, 1, 1]⟩
abbrev S1x1 : Shape := ⟨2, ![1, 1]⟩
abbrev S1x1x1 : Shape := ⟨3, ![1, 1, 1]⟩
abbrev S_ : Shape := ⟨0, ![]⟩

abbrev nBuf : Space → Nat
  | .hbm => 12
  | .vmem => 13
  | .smem => 0
  | _ => 0

abbrev bufTy : (tb : Table) → Fin (tcTables nBuf tb) → BufTy
  | .hbm, ⟨0, _⟩ => ⟨S8x2048x1, .f32⟩
  | .hbm, ⟨1, _⟩ => ⟨S8x2048x512, .f32⟩
  | .hbm, ⟨2, _⟩ => ⟨S1x2048x1, .f32⟩
  | .hbm, ⟨3, _⟩ => ⟨S1x1x2048, .f32⟩
  | .hbm, ⟨4, _⟩ => ⟨S8x2048x512, .bf16⟩
  | .hbm, ⟨5, _⟩ => ⟨S8x2048x512, .f32⟩
  | .hbm, ⟨6, _⟩ => ⟨S4x8x128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S8x512x1, .f32⟩
  | .local _ .vmem, ⟨1, _⟩ => ⟨S8x512x1, .f32⟩
  | .local _ .vmem, ⟨2, _⟩ => ⟨S1x1x128, .f32⟩
  | .local _ .vmem, ⟨3, _⟩ => ⟨S1x1x128, .f32⟩
  | .local _ .vmem, ⟨4, _⟩ => ⟨S8x128x512, .bf16⟩
  | .local _ .vmem, ⟨5, _⟩ => ⟨S8x128x512, .bf16⟩
  | .local _ .vmem, ⟨6, _⟩ => ⟨S8x512x512, .f32⟩
  | .local _ .vmem, ⟨7, _⟩ => ⟨S8x512x512, .f32⟩
  | .local _ .vmem, ⟨8, _⟩ => ⟨S1x8x128, .f32⟩
  | .local _ .vmem, ⟨9, _⟩ => ⟨S1x8x128, .f32⟩
  | .local _ .vmem, ⟨10, _⟩ => ⟨S8x512x1, .f32⟩
  | .local _ .vmem, ⟨11, _⟩ => ⟨S8x512x1, .f32⟩
  | .local _ .vmem, ⟨12, _⟩ => ⟨S8x512x512, .f32⟩
  | _, _ => ⟨S8x2048x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_33 : BitVec 32 := 0#32
  let v46 : BitVec 1 := Scalar.cmpi .ne v45 c0_i32_33
  v46

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1x2048x1_S1x1x2048_0_2_1 : S1x2048x1.Transposes [0, 2, 1] S1x1x2048
  bitsLt_bf16_f32 : FTy.bits .bf16 < FTy.bits .f32
  inb_S8x512x1_S8x512x1_0_0_0 : ∀ a, (![0, 0, 0] : Fin 3 → Nat) a + S8x512x1.size a ≤ S8x512x1.size a
  h_S8x512x1 : 0 < S8x512x1.numel
  shapeCasts_S8x512x1_S8x512x1 : S8x512x1.ShapeCasts S8x512x1
  inb_S8x512x512_S8x512x512_0_0_0 : ∀ a, (![0, 0, 0] : Fin 3 → Nat) a + S8x512x512.size a ≤ S8x512x512.size a
  h_S8x512x512 : 0 < S8x512x512.numel
  shapeCasts_S8x512x512_S8x512x512 : S8x512x512.ShapeCasts S8x512x512
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  broadcasts_S8x512x1_S8x512x128 : S8x512x1.Broadcasts S8x512x128
  broadcasts_S1x1x128_S8x512x128 : S1x1x128.Broadcasts S8x512x128
  reduces_S8x512x128_S8x512 : S8x512x128.Reduces [2] S8x512
  shapeCasts_S8x512_S8x512x1 : S8x512.ShapeCasts S8x512x1
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  broadcasts_S8x512x1_S8x512x512 : S8x512x1.Broadcasts S8x512x512
  reduces_S8x512x512_S8x512 : S8x512x512.Reduces [2] S8x512
  reduces_S8x512x1_S8x1 : S8x512x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  reducesTo_S4x8x128_S_d0_1_2 : S4x8x128.ReducesTo [0, 1, 2] S_
  h_S_ : 0 < S_.numel
  dot_S8x512x128_S8x128x512_S8x512x512_2_1_1_2_0_0_wf : DotDims.WF S8x512x128 S8x128x512 S8x512x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x1.size a ≤ S8x2048x1.size a
  hwx0_0 : ∀ i : grid0.Coords, EltTy.bits .f32 = 32 ∨ (Rect.block (s := S8x2048x1) S8x512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S1x1x2048.size a
  hwx0_1 : ∀ i : grid0.Coords, EltTy.bits .f32 = 32 ∨ (Rect.block (s := S1x1x2048) S1x1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x2048x512.size a
  hwx0_2 : ∀ i : grid0.Coords, EltTy.bits .bf16 = 32 ∨ (Rect.block (s := S8x2048x512) S8x128x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x512x512.size a ≤ S8x2048x512.size a
  hwx0_3 : ∀ i : grid0.Coords, EltTy.bits .f32 = 32 ∨ (Rect.block (s := S8x2048x512) S8x512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S4x8x128.size a
  hwx0_4 : ∀ i : grid0.Coords, EltTy.bits .f32 = 32 ∨ (Rect.block (s := S4x8x128) S1x8x128.size (cc0_transform_4 i) (hinb0_4 i)).WholeWords (EltTy.packing .f32)

variable [Facts₀]

def dot_S8x512x128_S8x128x512_S8x512x512_2_1_1_2_0_0 : DotDims S8x512x128 S8x128x512 S8x512x512 where
  lhsContracting := [2]
  rhsContracting := [1]
  lhsNonContracting := [1]
  rhsNonContracting := [2]
  lhsBatch := [0]
  rhsBatch := [0]
  wf := dot_S8x512x128_S8x128x512_S8x512x512_2_1_1_2_0_0_wf

abbrev win0_0 : Pipeline.Window sig grid0 :=
  Pipeline.Window.ofSpec (Memref.whole main_arg0) S8x512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S8x512x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x2048x1 : Shape := ⟨3, ![8, 2048, 1]⟩
abbrev S8x2048x512 : Shape := ⟨3, ![8, 2048, 512]⟩
abbrev S1x2048x1 : Shape := ⟨3, ![1, 2048, 1]⟩
abbrev S8x2048 : Shape := ⟨2, ![8, 2048]⟩
abbrev S2048 : Shape := ⟨1, ![2048]⟩
abbrev S1x1x2048 : Shape := ⟨3, ![1, 1, 2048]⟩
abbrev S8x2048x2048 : Shape := ⟨3, ![8, 2048, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x1, .f32⟩
  | .hbm, ⟨1, _⟩ => ⟨S8x2048x512, .f32⟩
  | .hbm, ⟨2, _⟩ => ⟨S1x2048x1, .f32⟩
  | .hbm, ⟨3, _⟩ => ⟨S8x2048, .f32⟩
  | .hbm, ⟨4, _⟩ => ⟨S8x2048x1, .f32⟩
  | .hbm, ⟨5, _⟩ => ⟨S2048, .f32⟩
  | .hbm, ⟨6, _⟩ => ⟨S1x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S_, .f32⟩
  | .hbm, ⟨20, _⟩ => ⟨S8x2048, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x2048, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x2048x2048, .f32⟩
  | .hbm, ⟨30, _⟩ => ⟨S8x2048x2048, .f32⟩
  | .hbm, ⟨31, _⟩ => ⟨S8x2048x512, .f32⟩
  | .hbm, ⟨32, _⟩ => ⟨S8x2048x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x2048x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩

abbrev nD : Nat := 1
abbrev τ : Topo := Topo.v7x

variable {F : FTy → Type} [FloatOps F]

class Facts₀ : Prop where
  shapeCasts_S8x2048x1_S8x2048 : S8x2048x1.ShapeCasts S8x2048
  bcast_S8x2048_S8x2048x1_0_1 : S8x2048.BroadcastsInDim S8x2048x1 (![0, 1] : Fin 2 → Fin S8x2048x1.rank)
  shapeCasts_S1x2048x1_S2048 : S1x2048x1.ShapeCasts S2048
  bcast_S2048_S1x1x2048_2 : S2048.BroadcastsInDim S1x1x2048 (![2] : Fin 1 → Fin S1x1x2048.rank)
  bcast_S8x2048x1_S8x2048x2048_0_1_2 : S8x2048x1.BroadcastsInDim S8x2048x2048 (![0, 1, 2] : Fin 3 → Fin S8x2048x2048.rank)
  bcast_S1x1x2048_S8x2048x2048_0_1_2 : S1x1x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  reducesTo_S8x2048x512_S_d0_1_2 : S8x2048x512.ReducesTo [0, 1, 2] S_
  dot_S8x2048x2048_S8x2048x512_S8x2048x512_2_1_1_2_0_0_wf : DotDims.WF S8x2048x2048 S8x2048x512 S8x2048x512 [2] [1] [1] [2] [0] [0]

variable [Facts₀]

def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf

class Facts : Prop extends Facts₀ where

variable [Facts]
-- ==== Proof.Pieces.lean ====
/-
  What each control case of the kernel body leaves in the three carried buffers (running maximum, normaliser,
  weighted sum) and, at the last key tile, in the two output blocks — each as the body's arithmetic applied to what the
  buffers held before and to the three input blocks. Every store covers its whole buffer, so a buffer ends at the value of
  the last store into it, and a load after a store reads what that store wrote.
-/
import proofs.«138027_j7928509629105_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem

namespace Cert.Dtw.Pieces
open Cert.KernelIdeal Cert.KernelIdeal.Gen
variable {F : FTy → Type} [FloatOps F]

theorem hz : (![0, 0, 0] : Fin 3 → Nat) = fun _ => 0 := funext fun a => by fin_cases a <;> rfl

/-! ## The first key tile: the buffers are first set to -inf, 0, 0, then updated from those -/

theorem sA0 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : cond0_0 i) (hc1 : ¬cond0_1 i)
    (x0 : Vec F S8x512x1 .f32) (x1 : Vec F S1x1x128 .f32) (x2 : Vec F S8x128x512 .bf16) :
    sout0_A_0 c i a2 h2 a3 h3 a4 h4 a5 h5 a6 h6 a7 h7 a8 h8 a9 h9 hc0 hc1 x0 x1 x2 = k0_pay2 (k0_pay9 x0 x1 (k0_pay5 (F := F))) := by
  unfold sout0_A_0
  rw [View.read_writes_eq_canon _ _ _ (scover0_A_0 c i a2 h2 a3 h3 a4 h4 a5 h5 a6 h6 a7 h7 a8 h8 a9 h9 hc0 hc1 x0 x1 x2)]
  unfold kernelRun0_A
  dsimp only
  sl_unfold_words
  rw [View.canon_cons_unit_zero (S := S8x512x1) hz]
  simp only [View.readAt_eq_ld, h2.read_unread, h3.read_unread, h4.read_unread, View.ld_unit_zero (S := S8x512x1) hz, View.ld_unit_zero (S := S1x1x128) hz, View.ld_unit_zero (S := S8x128x512) hz, View.readCov_unit_zero (S := S8x512x512) _ hz, View.readCov_unit_zero (S := S8x512x1) _ hz]

theorem sA1 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : cond0_0 i) (hc1 : ¬cond0_1 i)
    (x0 : Vec F S8x512x1 .f32) (x1 : Vec F S1x1x128 .f32) (x2 : Vec F S8x128x512 .bf16) :
    sout0_A_1 c i a2 h2 a3 h3 a4 h4 a5 h5 a6 h6 a7 h7 a8 h8 a9 h9 hc0 hc1 x0 x1 x2 = k0_pay12 x0 x1 (k0_pay5 (F := F)) (k0_pay5 (F := F)) (k0_pay6 (F := F)) := by
  unfold sout0_A_1
  rw [View.read_writes_eq_canon _ _ _ (scover0_A_1 c i a2 h2 a3 h3 a4 h4 a5 h5 a6 h6 a7 h7 a8 h8 a9 h9 hc0 hc1 x0 x1 x2)]
  unfold kernelRun0_A
  dsimp only
  sl_unfold_words
  rw [View.canon_cons_unit_zero (S := S8x512x1) hz]
  simp only [View.readAt_eq_ld, h2.read_unread, h3.read_unread, h4.read_unread, View.ld_unit_zero (S := S8x512x1) hz, View.ld_unit_zero (S := S1x1x128) hz, View.ld_unit_zero (S := S8x128x512) hz, View.readCov_unit_zero (S := S8x512x512) _ hz, View.readCov_unit_zero (S := S8x512x1) _ hz]

theorem sA2 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : cond0_0 i) (hc1 : ¬cond0_1 i)
    (x0 : Vec F S8x512x1 .f32) (x1 : Vec F S1x1x128 .f32) (x2 : Vec F S8x128x512 .bf16) :
    sout0_A_2 c i a2 h2 a3 h3 a4 h4 a5 h5 a6 h6 a7 h7 a8 h8 a9 h9 hc0 hc1 x0 x1 x2 = k0_pay1 (k0_pay10 x0 x1 (k0_pay5 (F := F)) (k0_pay5 (F := F))) (k0_pay13 x0 x1 (k0_pay5 (F := F))) x2 (k0_pay7 (F := F)) := by
  unfold sout0_A_2
  rw [View.read_writes_eq_canon _ _ _ (scover0_A_2 c i a2 h2 a3 h3 a4 h4 a5 h5 a6 h6 a7 h7 a8 h8 a9 h9 hc0 hc1 x0 x1 x2)]
  unfold kernelRun0_A
  dsimp only
  sl_unfold_words
  rw [View.canon_cons_unit_zero (S := S8x512x512) hz]
  simp only [View.readAt_eq_ld, h2.read_unread, h3.read_unread, h4.read_unread, View.ld_unit_zero (S := S8x512x1) hz, View.ld_unit_zero (S := S1x1x128) hz, View.ld_unit_zero (S := S8x128x512) hz, View.readCov_unit_zero (S := S8x512x512) _ hz, View.readCov_unit_zero (S := S8x512x1) _ hz]

/-! ## A middle key tile: the three buffers are updated from what they held -/

theorem sB0 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : ¬cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_B_0 c i a2 h2 a3 h3 a4 h4 a5 h5 a6 h6 a7 h7 a8 h8 a9 h9 hc0 hc1 x0 x1 x2 xs0 xs1 xs2 = k0_pay2 (k0_pay9 x0 x1 xs0) := by
  unfold sout0_B_0
  rw [View.read_writes_eq_canon _ _ _ (scover0_B_0 c i a2 h2 a3 h3 a4 h4 a5 h5 a6 h6 a7 h7 a8 h8 a9 h9 hc0 hc1 x0 x1 x2 xs0 xs1 xs2)]
  unfold kernelRun0_B
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

theorem sB1 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : ¬cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_B_1 c i a2 h2 a3 h3 a4 h4 a5 h5 a6 h6 a7 h7 a8 h8 a9 h9 hc0 hc1 x0 x1 x2 xs0 xs1 xs2 = k0_pay12 x0 x1 xs0 xs0 xs1 := by
  unfold sout0_B_1
  rw [View.read_writes_eq_canon _ _ _ (scover0_B_1 c i a2 h2 a3 h3 a4 h4 a5 h5 a6 h6 a7 h7 a8 h8 a9 h9 hc0 hc1 x0 x1 x2 xs0 xs1 xs2)]
  unfold kernelRun0_B
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

theorem sB2 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : ¬cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_B_2 c i a2 h2 a3 h3 a4 h4 a5 h5 a6 h6 a7 h7 a8 h8 a9 h9 hc0 hc1 x0 x1 x2 xs0 xs1 xs2 = k0_pay1 (k0_pay10 x0 x1 xs0 xs0) (k0_pay13 x0 x1 xs0) x2 xs2 := by
  unfold sout0_B_2
  rw [View.read_writes_eq_canon _ _ _ (scover0_B_2 c i a2 h2 a3 h3 a4 h4 a5 h5 a6 h6 a7 h7 a8 h8 a9 h9 hc0 hc1 x0 x1 x2 xs0 xs1 xs2)]
  unfold kernelRun0_B
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

/-! ## The last key tile: the same update, then the quotient and the tile's sum of squares -/

theorem sC0 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_C_0 c i a2 h2 a3 h3 a4 h4 a5 h5 a6 h6 a7 h7 a8 h8 a9 h9 hc0 hc1 x0 x1 x2 xs0 xs1 xs2 = k0_pay2 (k0_pay9 x0 x1 xs0) := by
  unfold sout0_C_0
  rw [View.read_writes_eq_canon _ _ _ (scover0_C_0 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

theorem sC1 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_C_1 c i a2 h2 a3 h3 a4 h4 a5 h5 a6 h6 a7 h7 a8 h8 a9 h9 hc0 hc1 x0 x1 x2 xs0 xs1 xs2 = k0_pay12 x0 x1 xs0 xs0 xs1 := by
  unfold sout0_C_1
  rw [View.read_writes_eq_canon _ _ _ (scover0_C_1 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

theorem sC2 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    sout0_C_2 c i a2 h2 a3 h3 a4 h4 a5 h5 a6 h6 a7 h7 a8 h8 a9 h9 hc0 hc1 x0 x1 x2 xs0 xs1 xs2 = k0_pay1 (k0_pay10 x0 x1 xs0 xs0) (k0_pay13 x0 x1 xs0) x2 xs2 := by
  unfold sout0_C_2
  rw [View.read_writes_eq_canon _ _ _ (scover0_C_2 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]

theorem oC3 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    out0_C_3 c i a2 h2 a3 h3 a4 h4 a5 h5 a6 h6 a7 h7 a8 h8 a9 h9 hc0 hc1 x0 x1 x2 xs0 xs1 xs2 = k0_pay3 (k0_pay1 (k0_pay10 x0 x1 xs0 xs0) (k0_pay13 x0 x1 xs0) x2 xs2) (k0_pay12 x0 x1 xs0 xs0 xs1) := by
  unfold out0_C_3
  rw [View.read_writes_eq_canon _ _ _ (cover0_C_3 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]
  rw [View.readCov_unit_zero (S := S8x512x512) _ hz, View.readCov_unit_zero (S := S8x512x1) _ hz]

theorem oC4 (c : Dev nD) (i : grid0.Coords) (a2 : Memref sig .tc .vmem S8x512x1 .f32) (h2 : a2.IsWhole) (a3 : Memref sig .tc .vmem S1x1x128 .f32) (h3 : a3.IsWhole) (a4 : Memref sig .tc .vmem S8x128x512 .bf16) (h4 : a4.IsWhole) (a5 : Memref sig .tc .vmem S8x512x512 .f32) (h5 : a5.IsWhole) (a6 : Memref sig .tc .vmem S1x8x128 .f32) (h6 : a6.IsWhole) (a7 : Memref sig .tc .vmem S8x512x1 .f32) (h7 : a7.IsWhole) (a8 : Memref sig .tc .vmem S8x512x1 .f32) (h8 : a8.IsWhole) (a9 : Memref sig .tc .vmem S8x512x512 .f32) (h9 : a9.IsWhole) (hc0 : ¬cond0_0 i) (hc1 : cond0_1 i)
    (x0 : Vec F S8x512x1 .f32) (x1 : Vec F S1x1x128 .f32) (x2 : Vec F S8x128x512 .bf16) (xs0 : Vec F S8x512x1 .f32) (xs1 : Vec F S8x512x1 .f32) (xs2 : Vec F S8x512x512 .f32) :
    out0_C_4 c i a2 h2 a3 h3 a4 h4 a5 h5 a6 h6 a7 h7 a8 h8 a9 h9 hc0 hc1 x0 x1 x2 xs0 xs1 xs2 = k0_pay4 (k0_pay1 (k0_pay10 x0 x1 xs0 xs0) (k0_pay13 x0 x1 xs0) x2 xs2) (k0_pay12 x0 x1 xs0 xs0 xs1) := by
  unfold out0_C_4
  rw [View.read_writes_eq_canon _ _ _ (cover0_C_4 c i a2 h2 a3 h3 a4 h4 a5 h5 a6 h6 a7 h7 a8 h8 a9 h9 hc0 hc1 x0 x1 x2 xs0 xs1 xs2)]
  unfold kernelRun0_C
  dsimp only
  sl_unfold_words
  rw [View.canon_unit_zero hz]
  simp only [View.readAt_eq_ld, h2.read_unread, h3.read_unread, h4.read_unread, h7.read_unread, h8.read_unread, h9.read_unread, View.ld_unit_zero (S := S8x512x1) hz, View.ld_unit_zero (S := S1x1x128) hz, View.ld_unit_zero (S := S8x128x512) hz, View.ld_unit_zero (S := S8x512x512) hz]
  rw [View.readCov_unit_zero (S := S8x512x512) _ hz, View.readCov_unit_zero (S := S8x512x1) _ hz]

end Cert.Dtw.Pieces
end
-- ==== Proof.LibGroupAxes.lean ====
/-
  A trailing axis read as groups of lanes, at an index.

  An array `[A, N]` whose second axis is `B` groups of `C` consecutive entries (`N = B · C`) is the array
  `[A, B, C]`: group `g`, lane `j` of row `p` is entry `g · C + j` of that row, because both indices have the same
  row-major position, `p · N + (g · C + j) = (p · B + g) · C + j`. The lemmas below read, at one index,

  * the shape cast `[A, N] → [A, B, C]` and the cast back (`split_apply`, `merge_apply`);
  * a per-group value kept on a unit axis, `[A, B] → [A, B, 1]`, and spread over the lanes,
    `[A, B, 1] → [A, B, C]` (`keep_apply`, `spread_lanes_apply`): what a `keepdims` reduction is followed by;
  * a per-group parameter `[1, B] → [1, B, 1]` spread over rows and lanes, `[1, B, 1] → [A, B, C]`
    (`keep_row_apply`, `spread_groups_apply`), and a per-column one `[1, N] → [A, N]` (`spread_rows_apply`);
  * a sum over the lane axis of `[A, B, C]` on the extended reals, as the sum over `Fin C` (`lane_sum_apply`).

  All are stated over arbitrary extents, with every index built from its coordinates by `ix2` / `ix3`.
-/
import Idealize.ShloMosaic.Lib.Pipeline.Value
import Idealize.ShloMosaic.Lib.ValueIdx
import Idealize.ShloMosaic.PureOps.Ideal.Laws

namespace Cert.LibGroupAxes

open Idealize.ShloMosaic Idealize.ShloMosaic.ValueIdx

variable {α : Type} {A B C N : Nat}

/-- `[A, N] → [A, B, C]` at (p, g, j) is the operand at (p, q) when `q = g · C + j`. -/
theorem split_apply (hN : N = B * C) (v : (⟨2, ![A, N]⟩ : Shape).Idx → α)
    (h : (⟨2, ![A, N]⟩ : Shape).ShapeCasts ⟨3, ![A, B, C]⟩) (p : Fin A) (g : Fin B) (j : Fin C) (q : Fin N)
    (hq : q.val = g.val * C + j.val) :
    shapeCast ⟨3, ![A, B, C]⟩ v h (ix3 p g j) = v (ix2 p q) :=
  shapeCast_apply v h (ix3 p g j) (ix2 p q) (by
    rw [Shape.rowMajor_val_two, Shape.rowMajor_val_three]
    show p.val * N + q.val = (p.val * B + g.val) * C + j.val
    rw [hq, hN]; ring)

/-- `[A, B, C] → [A, N]` at (p, q) is the operand at (p, g, j) when `q = g · C + j`. -/
theorem merge_apply (hN : N = B * C) (v : (⟨3, ![A, B, C]⟩ : Shape).Idx → α)
    (h : (⟨3, ![A, B, C]⟩ : Shape).ShapeCasts ⟨2, ![A, N]⟩) (p : Fin A) (g : Fin B) (j : Fin C) (q : Fin N)
    (hq : q.val = g.val * C + j.val) :
    shapeCast ⟨2, ![A, N]⟩ v h (ix2 p q) = v (ix3 p g j) :=
  shapeCast_apply v h (ix2 p q) (ix3 p g j) (by
    rw [Shape.rowMajor_val_two, Shape.rowMajor_val_three]
    show (p.val * B + g.val) * C + j.val = p.val * N + q.val
    rw [hq, hN]; ring)

/-- `[A, B] → [A, B, 1]` at (p, g, 0) is the operand at (p, g). -/
theorem keep_apply (v : (⟨2, ![A, B]⟩ : Shape).Idx → α) (h : (⟨2, ![A, B]⟩ : Shape).ShapeCasts ⟨3, ![A, B, 1]⟩)
    (p : Fin A) (g : Fin B) :
    shapeCast ⟨3, ![A, B, 1]⟩ v h (ix3 p g (0 : Fin 1)) = v (ix2 p g) :=
  shapeCast_apply v h (ix3 p g (0 : Fin 1)) (ix2 p g) (by
    rw [Shape.rowMajor_val_two, Shape.rowMajor_val_three]
    show p.val * B + g.val = (p.val * B + g.val) * 1 + 0
    omega)

/-- `[1, B] → [1, B, 1]` at (0, g, 0) is the operand at (0, g). -/
theorem keep_row_apply (v : (⟨2, ![1, B]⟩ : Shape).Idx → α) (h : (⟨2, ![1, B]⟩ : Shape).ShapeCasts ⟨3, ![1, B, 1]⟩)
    (g : Fin B) :
    shapeCast ⟨3, ![1, B, 1]⟩ v h (ix3 (0 : Fin 1) g (0 : Fin 1)) = v (ix2 (0 : Fin 1) g) :=
  keep_apply v h (0 : Fin 1) g

/-- `[A, B, 1] → [A, B, C]` at (p, g, j) is the operand at (p, g, 0): one value for the whole group. -/
theorem spread_lanes_apply (v : (⟨3, ![A, B, 1]⟩ : Shape).Idx → α)
    (h : (⟨3, ![A, B, 1]⟩ : Shape).Broadcasts ⟨3, ![A, B, C]⟩) (p : Fin A) (g : Fin B) (j : Fin C) :
    broadcastTo ⟨3, ![A, B, C]⟩ v h (ix3 p g j) = v (ix3 p g (0 : Fin 1)) :=
  broadcastTo_apply v h (ix3 p g j) (ix3 p g (0 : Fin 1)) (fun ax => match ax with
    | ⟨0, _⟩ => by
        show p.val = if A = 1 then 0 else p.val
        split_ifs with h1
        · have := p.isLt; omega
        · rfl
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, B, 1] → [A, B, C]` at (p, g, j) is the operand at (0, g, 0): one value per group, for every row. -/
theorem spread_groups_apply (v : (⟨3, ![1, B, 1]⟩ : Shape).Idx → α)
    (h : (⟨3, ![1, B, 1]⟩ : Shape).Broadcasts ⟨3, ![A, B, C]⟩) (p : Fin A) (g : Fin B) (j : Fin C) :
    broadcastTo ⟨3, ![A, B, C]⟩ v h (ix3 p g j) = v (ix3 (0 : Fin 1) g (0 : Fin 1)) :=
  broadcastTo_apply v h (ix3 p g j) (ix3 (0 : Fin 1) g (0 : Fin 1)) (fun ax => match ax with
    | ⟨0, _⟩ => by
        show 0 = if (1 : Nat) = 1 then 0 else p.val
        rw [if_pos rfl]
    | ⟨1, _⟩ => by
        show g.val = if B = 1 then 0 else g.val
        split_ifs with h1
        · have := g.isLt; omega
        · rfl
    | ⟨2, _⟩ => by
        show 0 = if (1 : Nat) = 1 then 0 else j.val
        rw [if_pos rfl])

/-- `[1, N] → [A, N]` at (p, q) is the operand at (0, q): one value per column, for every row. -/
theorem spread_rows_apply (v : (⟨2, ![1, N]⟩ : Shape).Idx → α)
    (h : (⟨2, ![1, N]⟩ : Shape).Broadcasts ⟨2, ![A, N]⟩) (p : Fin A) (q : Fin N) :
    broadcastTo ⟨2, ![A, N]⟩ v h (ix2 p q) = v (ix2 (0 : Fin 1) q) :=
  broadcastTo_apply v h (ix2 p q) (ix2 (0 : Fin 1) q) (fun ax => match ax with
    | ⟨0, _⟩ => by
        show 0 = if (1 : Nat) = 1 then 0 else p.val
        rw [if_pos rfl]
    | ⟨1, _⟩ => by
        show q.val = if N = 1 then 0 else q.val
        split_ifs with h1
        · have := q.isLt; omega
        · rfl)

/-- On the extended reals, the sum over the lane axis of `[A, B, C]` at (p, g) is the sum of the group's `C` entries. -/
theorem lane_sum_apply {φ : FTy} (src : FVec Ideal ⟨3, ![A, B, C]⟩ φ) (acc : BitVec φ.bits)
    (h : (⟨3, ![A, B, C]⟩ : Shape).Reduces [(2 : Fin 3)] ⟨2, ![A, B]⟩) (hφ : FKind.Formats φ)
    (hacc : acc = FKind.add.neutral φ hφ) (p : Fin A) (g : Fin B) :
    multiReduction .add [(2 : Fin 3)] ⟨2, ![A, B]⟩ src acc h hφ hacc (ix2 p g) = ∑ j : Fin C, src (ix3 p g j) :=
  (Ideal.multiReduction_add_single src acc h hφ hacc (ix2 p g)).trans
    (Finset.sum_congr rfl fun k _ => congrArg src (funext fun ax => Fin.ext (by
      match ax with | ⟨0, _⟩ => rfl | ⟨1, _⟩ => rfl | ⟨2, _⟩ => rfl)))

end Cert.LibGroupAxes
-- ==== Proof.LibOnlineSoftmax.lean ====
/-
  Softmax-weighted sums accumulated tile by tile ("online softmax").

  A row of scores `s t` and values `v t`, `t` ranging over `n` tiles of `K` keys each, is consumed one tile at a
  time, keeping a running maximum `m`, a running normaliser `l` and a running weighted sum `acc`:
    m'   = max m (max over the tile of s)
    l'   = exp (m - m') * l   + sum over the tile of exp (s - m')
    acc' = exp (m - m') * acc + sum over the tile of exp (s - m') * v
  from `m = -inf`, `l = 0`, `acc = 0`. After the last tile `acc / l` is the softmax-weighted sum of the whole row,
  `sum_t (exp (s t - M) / L) * v t` with `M` the row's maximum and `L = sum_u exp (s u - M)`: after `k` tiles
  `l = sum_{t seen} exp (s t - m)` and `acc = sum_{t seen} exp (s t - m) * v t` with `m` the maximum seen, because
  rescaling by `exp (m - m')` turns every `exp (s t - m)` into `exp (s t - m')`; at the first tile `m = -inf`,
  `exp (-inf) = 0` and the products with the zero state vanish. Everything is finite when the scores and values
  are real numbers and a tile is not empty, and the statement is over the extended reals with the exact
  operations of the ideal float instance (`Ideal.exp`, `Ideal.div`).
-/
import Idealize.ShloMosaic.PureOps.Ideal

noncomputable section

namespace Cert.OnlineSoftmax

open Idealize.ShloMosaic

/-- The running state: the maximum seen, the normaliser and the weighted sum, both relative to that maximum. -/
structure St where
  m : EReal
  l : EReal
  acc : EReal

/-- Before the first tile: maximum `-inf`, empty sums. -/
def init : St := ⟨⊥, 0, 0⟩

/-- One tile of `K` keys with scores `s` and values `v`. -/
def step {K : ℕ} (s v : Fin K → EReal) (st : St) : St :=
  ⟨max st.m (Finset.univ.fold max ⊥ s),
   Ideal.exp (st.m - max st.m (Finset.univ.fold max ⊥ s)) * st.l
     + ∑ j, Ideal.exp (s j - max st.m (Finset.univ.fold max ⊥ s)),
   Ideal.exp (st.m - max st.m (Finset.univ.fold max ⊥ s)) * st.acc
     + ∑ j, Ideal.exp (s j - max st.m (Finset.univ.fold max ⊥ s)) * v j⟩

/-- The state after the first `n` tiles. -/
def run {K : ℕ} (s v : ℕ → Fin K → EReal) : ℕ → St
  | 0 => init
  | n + 1 => step (s n) (v n) (run s v n)

/-- The softmax-weighted sum of a whole row, as a plain softmax computes it: subtract the row's maximum, exponentiate,
    divide by the sum, weigh the values. -/
def refRow {N : ℕ} (s v : Fin N → EReal) : EReal :=
  ∑ t, Ideal.div (Ideal.exp (s t - max ⊥ (Finset.univ.fold max ⊥ s)))
        (0 + ∑ u, Ideal.exp (s u - max ⊥ (Finset.univ.fold max ⊥ s))) * v t

/-- Key `j` of tile `b` in a row of `n` tiles of `K` keys. -/
def flat {n K : ℕ} (b : ℕ) (hb : b < n) (j : Fin K) : Fin (n * K) :=
  ⟨b * K + j.val, by
    have : b * K + j.val < (b + 1) * K := by rw [Nat.add_mul, Nat.one_mul]; exact Nat.add_lt_add_left j.isLt _
    exact lt_of_lt_of_le this (Nat.mul_le_mul_right K hb)⟩

/-- The coercion into the extended reals of a finite sum of reals is the sum of the coercions. -/
theorem coe_sum {ι : Type*} (S : Finset ι) (f : ι → ℝ) :
    ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The maximum of two reals, taken in the extended reals, is the coercion of their real maximum. -/
theorem coe_max (x y : ℝ) : max (x : EReal) (y : EReal) = ((max x y : ℝ) : EReal) :=
  (EReal.coe_strictMono.monotone.map_max).symm

/-- The maximum of finitely many reals, folded in the extended reals from `-inf`, is `-inf` (no term) or a real. -/
theorem fold_max_coe {ι : Type*} (S : Finset ι) (f : ι → ℝ) :
    S.fold max ⊥ (fun i => (f i : EReal)) = ⊥
      ∨ ∃ r : ℝ, S.fold max ⊥ (fun i => (f i : EReal)) = (r : EReal) := by
  classical
  induction S using Finset.induction_on with
  | empty => left; simp
  | insert a S ha ih =>
    right
    rw [Finset.fold_insert ha]
    rcases ih with h | ⟨r, h⟩
    · exact ⟨f a, by rw [h, max_bot_right]⟩
    · exact ⟨max (f a) r, by rw [h, coe_max]⟩

/-- The maximum of a nonempty finite family of reals, folded in the extended reals from `-inf`, is a real. -/
theorem fold_max_coe_of_nonempty {ι : Type*} {S : Finset ι} (hS : S.Nonempty) (f : ι → ℝ) :
    ∃ r : ℝ, S.fold max ⊥ (fun i => (f i : EReal)) = (r : EReal) := by
  rcases fold_max_coe S f with h | h
  · obtain ⟨a, ha⟩ := hS
    have hle : ((f a : ℝ) : EReal) ≤ S.fold max ⊥ (fun i => (f i : EReal)) :=
      (Finset.le_fold_max _).2 (Or.inr ⟨a, ha, le_rfl⟩)
    rw [h] at hle
    exact absurd (le_bot_iff.1 hle) (EReal.coe_ne_bot _)
  · exact h

/-- The first tile: from the empty state, a nonempty tile of real scores `sr` and real values `vr` gives a real
    maximum `m`, the normaliser `sum_j exp (sr j - m)` and the weighted sum `sum_j exp (sr j - m) * vr j`. -/
theorem step_init {K : ℕ} (hK : 0 < K) (sr vr : Fin K → ℝ) (s v : Fin K → EReal)
    (hs : ∀ j, s j = ((sr j : ℝ) : EReal)) (hv : ∀ j, v j = ((vr j : ℝ) : EReal)) :
    ∃ m : ℝ, (step s v init).m = (m : EReal)
      ∧ (step s v init).l = ((∑ j, Real.exp (sr j - m) : ℝ) : EReal)
      ∧ (step s v init).acc = ((∑ j, Real.exp (sr j - m) * vr j : ℝ) : EReal) := by
  obtain rfl : s = fun j => ((sr j : ℝ) : EReal) := funext hs
  obtain rfl : v = fun j => ((vr j : ℝ) : EReal) := funext hv
  haveI : Nonempty (Fin K) := ⟨⟨0, hK⟩⟩
  obtain ⟨m, hm⟩ := fold_max_coe_of_nonempty (Finset.univ_nonempty (α := Fin K)) sr
  have hm' : max (⊥ : EReal) (Finset.univ.fold max ⊥ fun j => ((sr j : ℝ) : EReal)) = (m : EReal) := by
    rw [max_bot_left, hm]
  refine ⟨m, hm', ?_, ?_⟩
  · show Ideal.exp (⊥ - max (⊥ : EReal) _) * (0 : EReal) + ∑ j, Ideal.exp (((sr j : ℝ) : EReal) - max (⊥ : EReal) _) = _
    rw [hm', mul_zero, zero_add, coe_sum]
    exact Finset.sum_congr rfl fun j _ => by rw [← EReal.coe_sub, Ideal.exp_coe]
  · show Ideal.exp (⊥ - max (⊥ : EReal) _) * (0 : EReal)
        + ∑ j, Ideal.exp (((sr j : ℝ) : EReal) - max (⊥ : EReal) _) * ((vr j : ℝ) : EReal) = _
    rw [hm', mul_zero, zero_add, coe_sum]
    exact Finset.sum_congr rfl fun j _ => by rw [← EReal.coe_sub, Ideal.exp_coe, EReal.coe_mul]

/-- A later tile: from a state with real maximum `m`, normaliser `L` and weighted sum `A`, a tile of real scores
    `sr` and real values `vr` gives a real maximum `m'`, the normaliser `exp (m - m') * L + sum_j exp (sr j - m')` and
    the weighted sum `exp (m - m') * A + sum_j exp (sr j - m') * vr j`. -/
theorem step_coe {K : ℕ} (sr vr : Fin K → ℝ) (s v : Fin K → EReal)
    (hs : ∀ j, s j = ((sr j : ℝ) : EReal)) (hv : ∀ j, v j = ((vr j : ℝ) : EReal))
    (st : St) (m L A : ℝ) (hm : st.m = (m : EReal)) (hl : st.l = (L : EReal)) (hacc : st.acc = (A : EReal)) :
    ∃ m' : ℝ, (step s v st).m = (m' : EReal)
      ∧ (step s v st).l = ((Real.exp (m - m') * L + ∑ j, Real.exp (sr j - m') : ℝ) : EReal)
      ∧ (step s v st).acc = ((Real.exp (m - m') * A + ∑ j, Real.exp (sr j - m') * vr j : ℝ) : EReal) := by
  obtain rfl : s = fun j => ((sr j : ℝ) : EReal) := funext hs
  obtain rfl : v = fun j => ((vr j : ℝ) : EReal) := funext hv
  obtain ⟨m', hm'⟩ : ∃ m' : ℝ,
      max st.m (Finset.univ.fold max ⊥ fun j => ((sr j : ℝ) : EReal)) = (m' : EReal) := by
    rw [hm]
    rcases fold_max_coe Finset.univ sr with h | ⟨r, h⟩
    · exact ⟨m, by rw [h, max_bot_right]⟩
    · exact ⟨max m r, by rw [h, coe_max]⟩
  refine ⟨m', hm', ?_, ?_⟩
  · show Ideal.exp (st.m - max st.m _) * st.l + ∑ j, Ideal.exp (((sr j : ℝ) : EReal) - max st.m _) = _
    rw [hm', hm, hl, EReal.coe_add, EReal.coe_mul, coe_sum, ← EReal.coe_sub, Ideal.exp_coe]
    congr 1
  · show Ideal.exp (st.m - max st.m _) * st.acc
        + ∑ j, Ideal.exp (((sr j : ℝ) : EReal) - max st.m _) * ((vr j : ℝ) : EReal) = _
    rw [hm', hm, hacc, EReal.coe_add, EReal.coe_mul, coe_sum, ← EReal.coe_sub, Ideal.exp_coe]
    congr 1

/-- The invariant of the tile-by-tile computation. After `k + 1` nonempty tiles of real scores `sr b j` and real
    values `vr b j` the maximum is a real `m`, the normaliser is `sum_{b <= k} sum_j exp (sr b j - m)` and the weighted
    sum is `sum_{b <= k} sum_j exp (sr b j - m) * vr b j`. -/
theorem run_coe {K : ℕ} (hK : 0 < K) (sr vr : ℕ → Fin K → ℝ) (sb vb : ℕ → Fin K → EReal) (k : ℕ)
    (hs : ∀ b, b < k + 1 → ∀ j, sb b j = ((sr b j : ℝ) : EReal))
    (hv : ∀ b, b < k + 1 → ∀ j, vb b j = ((vr b j : ℝ) : EReal)) :
    ∃ m : ℝ, (run sb vb (k + 1)).m = (m : EReal)
      ∧ (run sb vb (k + 1)).l = ((∑ b ∈ Finset.range (k + 1), ∑ j, Real.exp (sr b j - m) : ℝ) : EReal)
      ∧ (run sb vb (k + 1)).acc
          = ((∑ b ∈ Finset.range (k + 1), ∑ j, Real.exp (sr b j - m) * vr b j : ℝ) : EReal) := by
  induction k with
  | zero =>
    obtain ⟨m, h1, h2, h3⟩ := step_init hK (sr 0) (vr 0) (sb 0) (vb 0) (hs 0 (by omega)) (hv 0 (by omega))
    refine ⟨m, h1, ?_, ?_⟩
    · rw [Finset.sum_range_one]; exact h2
    · rw [Finset.sum_range_one]; exact h3
  | succ k ih =>
    obtain ⟨m, h1, h2, h3⟩ := ih (fun b hb => hs b (by omega)) (fun b hb => hv b (by omega))
    obtain ⟨m', g1, g2, g3⟩ := step_coe (sr (k + 1)) (vr (k + 1)) (sb (k + 1)) (vb (k + 1))
      (hs (k + 1) (by omega)) (hv (k + 1) (by omega)) (run sb vb (k + 1)) m _ _ h1 h2 h3
    have hexp : ∀ x : ℝ, Real.exp (m - m') * Real.exp (x - m) = Real.exp (x - m') := by
      intro x; rw [← Real.exp_add]; congr 1; ring
    refine ⟨m', g1, ?_, ?_⟩
    · refine g2.trans ?_
      congr 1
      rw [Finset.sum_range_succ _ (k + 1), Finset.mul_sum]
      congr 1
      refine Finset.sum_congr rfl fun b _ => ?_
      rw [Finset.mul_sum]
      exact Finset.sum_congr rfl fun j _ => hexp _
    · refine g3.trans ?_
      congr 1
      rw [Finset.sum_range_succ _ (k + 1), Finset.mul_sum]
      congr 1
      refine Finset.sum_congr rfl fun b _ => ?_
      rw [Finset.mul_sum]
      exact Finset.sum_congr rfl fun j _ => by rw [← mul_assoc, hexp]

/-- A sum over a row of `n` tiles of `K` keys is the sum over the tiles of the sums over each tile's keys. -/
theorem sum_flat {n K : ℕ} (g : Fin (n * K) → ℝ) (G : ℕ → Fin K → ℝ)
    (hG : ∀ (b : ℕ) (hb : b < n) (j : Fin K), G b j = g (flat b hb j)) :
    ∑ b ∈ Finset.range n, ∑ j, G b j = ∑ t, g t := by
  rw [Finset.sum_range, ← (finProdFinEquiv (m := n) (n := K)).sum_comp g, Fintype.sum_prod_type]
  refine Finset.sum_congr rfl fun b _ => Finset.sum_congr rfl fun j _ => ?_
  rw [hG b b.isLt j]
  congr 1
  apply Fin.ext
  rw [finProdFinEquiv_apply_val]
  show b.val * K + j.val = j.val + K * b.val
  rw [Nat.mul_comm, Nat.add_comm]

/-- The softmax-weighted sum does not depend on the reference point subtracted inside the exponentials: with any
    `m` in place of the maximum `M`, `(sum_t exp (s t - m) * v t) / sum_t exp (s t - m)` is
    `sum_t (exp (s t - M) / sum_u exp (s u - M)) * v t`. -/
theorem weighted_sum_shift {ι : Type*} [Fintype ι] [Nonempty ι] (s v : ι → ℝ) (m M : ℝ) :
    (∑ t, Real.exp (s t - m) * v t) * (1 / ∑ t, Real.exp (s t - m))
      = ∑ t, Real.exp (s t - M) * (1 / ∑ u, Real.exp (s u - M)) * v t := by
  have h : ∀ t, Real.exp (s t - m) = Real.exp (M - m) * Real.exp (s t - M) := by
    intro t; rw [← Real.exp_add]; congr 1; ring
  have hc : Real.exp (M - m) ≠ 0 := (Real.exp_pos _).ne'
  have hL : (∑ u, Real.exp (s u - M)) ≠ 0 :=
    (Finset.sum_pos (fun u _ => Real.exp_pos (s u - M)) Finset.univ_nonempty).ne'
  have h1 : ∑ t, Real.exp (s t - m) = Real.exp (M - m) * ∑ u, Real.exp (s u - M) := by
    rw [Finset.mul_sum]; exact Finset.sum_congr rfl fun t _ => h t
  have h2 : ∑ t, Real.exp (s t - m) * v t = Real.exp (M - m) * ∑ t, Real.exp (s t - M) * v t := by
    rw [Finset.mul_sum]; exact Finset.sum_congr rfl fun t _ => by rw [h t, mul_assoc]
  have h3 : ∑ t, Real.exp (s t - M) * (1 / ∑ u, Real.exp (s u - M)) * v t
      = (1 / ∑ u, Real.exp (s u - M)) * ∑ t, Real.exp (s t - M) * v t := by
    rw [Finset.mul_sum]; exact Finset.sum_congr rfl fun t _ => by ring
  rw [h1, h2, h3]
  field_simp

/-- The plain softmax-weighted sum of a nonempty row of real scores and values is the real number
    `sum_t exp (s t - M) * (1 / sum_u exp (s u - M)) * v t`, for a real `M` (the row's maximum). -/
theorem refRow_coe {N : ℕ} (hN : 0 < N) (s v : Fin N → ℝ) :
    ∃ M : ℝ, refRow (fun t => ((s t : ℝ) : EReal)) (fun t => ((v t : ℝ) : EReal))
      = ((∑ t, Real.exp (s t - M) * (1 / ∑ u, Real.exp (s u - M)) * v t : ℝ) : EReal) := by
  haveI : Nonempty (Fin N) := ⟨⟨0, hN⟩⟩
  obtain ⟨M, hM⟩ := fold_max_coe_of_nonempty (Finset.univ_nonempty (α := Fin N)) s
  have hM' : max (⊥ : EReal) (Finset.univ.fold max ⊥ fun t => ((s t : ℝ) : EReal)) = (M : EReal) := by
    rw [max_bot_left, hM]
  have hL : (∑ u, Real.exp (s u - M)) ≠ 0 :=
    (Finset.sum_pos (fun u _ => Real.exp_pos (s u - M)) Finset.univ_nonempty).ne'
  have hexp : ∀ t, Ideal.exp (((s t : ℝ) : EReal) - (M : EReal)) = ((Real.exp (s t - M) : ℝ) : EReal) := by
    intro t; rw [← EReal.coe_sub, Ideal.exp_coe]
  refine ⟨M, ?_⟩
  unfold refRow
  rw [hM', coe_sum]
  refine Finset.sum_congr rfl fun t _ => ?_
  rw [zero_add, hexp t, Finset.sum_congr rfl (fun u _ => hexp u), ← coe_sum, Ideal.div_coe hL,
    ← EReal.coe_mul, ← EReal.coe_mul]

/-- After all `n` tiles of a row of real scores and values, `acc / l` is the row's softmax-weighted sum. -/
theorem run_div_eq_refRow {n K : ℕ} (hn : 0 < n) (hK : 0 < K) (s v : Fin (n * K) → ℝ)
    (sb vb : ℕ → Fin K → EReal)
    (hs : ∀ (b : ℕ) (hb : b < n) (j : Fin K), sb b j = ((s (flat b hb j) : ℝ) : EReal))
    (hv : ∀ (b : ℕ) (hb : b < n) (j : Fin K), vb b j = ((v (flat b hb j) : ℝ) : EReal)) :
    Ideal.div (run sb vb n).acc (run sb vb n).l
      = refRow (fun t => ((s t : ℝ) : EReal)) (fun t => ((v t : ℝ) : EReal)) := by
  obtain ⟨k, rfl⟩ : ∃ k, n = k + 1 := ⟨n - 1, by omega⟩
  have hN : 0 < (k + 1) * K := Nat.mul_pos (Nat.succ_pos k) hK
  haveI : Nonempty (Fin ((k + 1) * K)) := ⟨⟨0, hN⟩⟩
  let sr : ℕ → Fin K → ℝ := fun b j => if hb : b < k + 1 then s (flat b hb j) else 0
  let vr : ℕ → Fin K → ℝ := fun b j => if hb : b < k + 1 then v (flat b hb j) else 0
  have hsr : ∀ (b : ℕ) (hb : b < k + 1) (j : Fin K), sr b j = s (flat b hb j) := fun b hb j => dif_pos hb
  have hvr : ∀ (b : ℕ) (hb : b < k + 1) (j : Fin K), vr b j = v (flat b hb j) := fun b hb j => dif_pos hb
  obtain ⟨m, -, hl, hacc⟩ := run_coe hK sr vr sb vb k
    (fun b hb j => by rw [hs b hb j, hsr b hb j]) (fun b hb j => by rw [hv b hb j, hvr b hb j])
  obtain ⟨M, hM⟩ := refRow_coe hN s v
  rw [hM, hl, hacc,
    sum_flat (fun t => Real.exp (s t - m)) (fun b j => Real.exp (sr b j - m)) (fun b hb j => by rw [hsr b hb j]),
    sum_flat (fun t => Real.exp (s t - m) * v t) (fun b j => Real.exp (sr b j - m) * vr b j)
      (fun b hb j => by rw [hsr b hb j, hvr b hb j])]
  have hL : (∑ t, Real.exp (s t - m)) ≠ 0 :=
    (Finset.sum_pos (fun u _ => Real.exp_pos (s u - m)) Finset.univ_nonempty).ne'
  rw [Ideal.div_coe hL, ← EReal.coe_mul, weighted_sum_shift s v m M]

end Cert.OnlineSoftmax

end
-- ==== Proof.Payload.lean ====
/-
  The kernel body's arithmetic read at one entry, on the extended reals.

  For query row (b, q) of the current query tile, key j of the current key tile and feature column f:
  the score is minus the distance between the query's and the key's scalars; the new running maximum is the maximum of
  the old one and of the tile's scores; the old normaliser and weighted sum are rescaled by exp (old maximum - new
  maximum) and the tile's terms exp (score - new maximum), resp. those times the key's feature entry, are added. That
  is one step of the tile-by-tile softmax recurrence. At the last key tile the output entry is the weighted sum
  divided by the normaliser.
-/
import proofs.«138027_j7928509629105_2_alg».proof.Proof.Gen.KernelIdeal.Skeleton
import proofs.«138027_j7928509629105_2_alg».proof.Proof.LibGroupAxes
import proofs.«138027_j7928509629105_2_alg».proof.Proof.LibOnlineSoftmax
import Idealize.ShloMosaic.Lib.Pipeline.Value
import Idealize.ShloMosaic.Lib.ValueIdx
import Idealize.ShloMosaic.PureOps.Ideal.Laws

set_option maxRecDepth 16384

noncomputable section
open Idealize.ShloMosaic Idealize.ShloMosaic.TcCoe Idealize.SL.Sem

namespace Cert.Dtw.Payload
open Cert.KernelIdeal Cert.KernelIdeal.Gen Idealize.ShloMosaic.ValueIdx Cert.OnlineSoftmax Cert.LibGroupAxes

/-- The score of a query scalar against a key scalar: minus their distance. -/
def score (x y : EReal) : EReal := 0 - max (x - y) (-(x - y))

/-- The word 0xFF800000 is -inf. -/
theorem ofBits_neg_inf : Ideal.ofBits .f32 0xFF800000#32 = (⊥ : EReal) := by
  simp [Ideal.ofBits, Ideal.ieee]

/-- A [1,1,C] row laid along every (row, column) of [A,B,C] reads its entry j. -/
theorem row_lanes_apply {α : Type} {A B C : Nat} (v : (⟨3, ![1, 1, C]⟩ : Shape).Idx → α)
    (h : (⟨3, ![1, 1, C]⟩ : Shape).Broadcasts ⟨3, ![A, B, C]⟩) (p : Fin A) (g : Fin B) (j : Fin C) :
    broadcastTo ⟨3, ![A, B, C]⟩ v h (ix3 p g j) = v (ix3 (0 : Fin 1) (0 : Fin 1) j) :=
  broadcastTo_apply v h (ix3 p g j) (ix3 (0 : Fin 1) (0 : Fin 1) j) (fun ax => match ax with
    | ⟨0, _⟩ => by
        show 0 = if (1 : Nat) = 1 then 0 else p.val
        rw [if_pos rfl]
    | ⟨1, _⟩ => by
        show 0 = if (1 : Nat) = 1 then 0 else g.val
        rw [if_pos rfl]
    | ⟨2, _⟩ => by
        show j.val = if C = 1 then 0 else j.val
        split_ifs with h1
        · have := j.isLt; omega
        · rfl)

/-- On the extended reals, the maximum over the lane axis of [A,B,C] from -inf at (p, g) is the fold of max over the
    group's C entries. -/
theorem lane_max_apply {A B C : Nat} (src : FVec Ideal ⟨3, ![A, B, C]⟩ .f32)
    (h : (⟨3, ![A, B, C]⟩ : Shape).Reduces [(2 : Fin 3)] ⟨2, ![A, B]⟩) (hφ : FKind.Formats .f32)
    (hacc : (0xFF800000#32 : BitVec 32) = FKind.maximumf.neutral .f32 hφ) (p : Fin A) (g : Fin B) :
    multiReduction .maximumf [(2 : Fin 3)] ⟨2, ![A, B]⟩ src 0xFF800000#32 h hφ hacc (ix2 p g)
      = Finset.univ.fold max ⊥ (fun j : Fin C => src (ix3 p g j)) := by
  refine (Ideal.multiReduction_maximumf_single src _ h hφ hacc (ix2 p g)).trans ?_
  show Finset.univ.fold max (Ideal.ofBits .f32 0xFF800000#32) _ = _
  rw [ofBits_neg_inf]
  refine congrArg (Finset.univ.fold max ⊥) (funext fun k => congrArg src (funext fun ax => Fin.ext (by
    match ax with | ⟨0, _⟩ => rfl | ⟨1, _⟩ => rfl | ⟨2, _⟩ => rfl)))

section
variable (x0 : Vec Ideal S8x512x1 .f32) (x1 : Vec Ideal S1x1x128 .f32) (x2 : Vec Ideal S8x128x512 .bf16)
variable (xm xl : Vec Ideal S8x512x1 .f32) (xacc : Vec Ideal S8x512x512 .f32)
variable (b : Fin 8) (q : Fin 512)

/-- The scores of query row (b, q) against the current tile's 128 keys. -/
def sRow : Fin 128 → EReal := fun j => score (x0 (ix3 b q (0 : Fin 1))) (x1 (ix3 (0 : Fin 1) (0 : Fin 1) j))

theorem pay8_apply (j : Fin 128) : k0_pay8 x0 x1 (ix3 b q j) = sRow x0 x1 b q j := by
  unfold k0_pay8 sRow score
  show Ideal.ofBits .f32 0x00000000#32
      - max (broadcastTo S8x512x128 x0 _ (ix3 b q j) - broadcastTo S8x512x128 (shapeCast S1x1x128 x1 _) _ (ix3 b q j))
          (-(broadcastTo S8x512x128 x0 _ (ix3 b q j) - broadcastTo S8x512x128 (shapeCast S1x1x128 x1 _) _ (ix3 b q j))) = _
  rw [Ideal.ofBits_zero_f32, spread_lanes_apply, row_lanes_apply, shapeCast_self]

/-- The new running maximum. -/
theorem pay9_apply :
    k0_pay9 x0 x1 xm (ix3 b q (0 : Fin 1)) = max (xm (ix3 b q (0 : Fin 1))) (Finset.univ.fold max ⊥ (sRow x0 x1 b q)) := by
  unfold k0_pay9
  show max (xm (ix3 b q (0 : Fin 1))) (shapeCast S8x512x1 (multiReduction .maximumf [2] S8x512 (k0_pay8 x0 x1) 0xFF800000#32 _ _ _) _ (ix3 b q (0 : Fin 1))) = _
  refine congrArg (max (xm (ix3 b q (0 : Fin 1)))) ?_
  refine (keep_apply _ _ b q).trans ?_
  refine (lane_max_apply _ _ _ _ b q).trans ?_
  exact congrArg (Finset.univ.fold max ⊥) (funext fun j => pay8_apply x0 x1 b q j)

/-- The rescale factor of the old normaliser and weighted sum. -/
theorem pay10_apply :
    k0_pay10 x0 x1 xm xm (ix3 b q (0 : Fin 1))
      = Ideal.exp (xm (ix3 b q (0 : Fin 1)) - k0_pay9 x0 x1 xm (ix3 b q (0 : Fin 1))) := rfl

/-- The tile's exponentials. -/
theorem pay11_apply (j : Fin 128) :
    k0_pay11 x0 x1 xm (ix3 b q j) = Ideal.exp (sRow x0 x1 b q j - k0_pay9 x0 x1 xm (ix3 b q (0 : Fin 1))) := by
  unfold k0_pay11
  show Ideal.exp (k0_pay8 x0 x1 (ix3 b q j) - broadcastTo S8x512x128 (k0_pay9 x0 x1 xm) _ (ix3 b q j)) = _
  rw [spread_lanes_apply, pay8_apply]

/-- The new normaliser. -/
theorem pay12_apply :
    k0_pay12 x0 x1 xm xm xl (ix3 b q (0 : Fin 1))
      = k0_pay10 x0 x1 xm xm (ix3 b q (0 : Fin 1)) * xl (ix3 b q (0 : Fin 1)) + ∑ j : Fin 128, k0_pay11 x0 x1 xm (ix3 b q j) := by
  unfold k0_pay12
  rw [shapeCast_self]
  show k0_pay10 x0 x1 xm xm (ix3 b q (0 : Fin 1)) * xl (ix3 b q (0 : Fin 1))
      + shapeCast S8x512x1 (multiReduction .add [2] S8x512 (k0_pay11 x0 x1 xm) 0x00000000#32 _ _ _) _ (ix3 b q (0 : Fin 1)) = _
  exact congrArg (_ + ·) ((keep_apply _ _ b q).trans (lane_sum_apply _ _ _ _ _ b q))

end

/-! ## The batched product of a tile's weights with the tile's feature rows -/

theorem lhs_0 (i : S8x512x512.Idx) (k : dot_S8x512x128_S8x128x512_S8x512x512_2_1_1_2_0_0.contr.Idx) : (dot_S8x512x128_S8x128x512_S8x512x512_2_1_1_2_0_0.lhsIdx i k 0).val = (i 0).val := by
  unfold DotDims.lhsIdx
  rw [dif_pos (show (0 : Fin S8x512x128.rank) ∈ dot_S8x512x128_S8x128x512_S8x512x512_2_1_1_2_0_0.lhsBatch by decide)]
  rfl
theorem lhs_1 (i : S8x512x512.Idx) (k : dot_S8x512x128_S8x128x512_S8x512x512_2_1_1_2_0_0.contr.Idx) : (dot_S8x512x128_S8x128x512_S8x512x512_2_1_1_2_0_0.lhsIdx i k 1).val = (i 1).val := by
  unfold DotDims.lhsIdx
  rw [dif_neg (show ¬(1 : Fin S8x512x128.rank) ∈ dot_S8x512x128_S8x128x512_S8x512x512_2_1_1_2_0_0.lhsBatch by decide), dif_pos (show (1 : Fin S8x512x128.rank) ∈ dot_S8x512x128_S8x128x512_S8x512x512_2_1_1_2_0_0.lhsNonContracting by decide)]
  rfl
theorem lhs_2 (i : S8x512x512.Idx) (k : dot_S8x512x128_S8x128x512_S8x512x512_2_1_1_2_0_0.contr.Idx) : (dot_S8x512x128_S8x128x512_S8x512x512_2_1_1_2_0_0.lhsIdx i k 2).val = (k ⟨0, by decide⟩).val :=
  dot_S8x512x128_S8x128x512_S8x512x512_2_1_1_2_0_0.lhsIdx_val_of_single rfl i k
theorem rhs_0 (i : S8x512x512.Idx) (k : dot_S8x512x128_S8x128x512_S8x512x512_2_1_1_2_0_0.contr.Idx) : (dot_S8x512x128_S8x128x512_S8x512x512_2_1_1_2_0_0.rhsIdx i k 0).val = (i 0).val := by
  unfold DotDims.rhsIdx
  rw [dif_pos (show (0 : Fin S8x128x512.rank) ∈ dot_S8x512x128_S8x128x512_S8x512x512_2_1_1_2_0_0.rhsBatch by decide)]
  rfl
theorem rhs_1 (i : S8x512x512.Idx) (k : dot_S8x512x128_S8x128x512_S8x512x512_2_1_1_2_0_0.contr.Idx) : (dot_S8x512x128_S8x128x512_S8x512x512_2_1_1_2_0_0.rhsIdx i k 1).val = (k ⟨0, by decide⟩).val :=
  dot_S8x512x128_S8x128x512_S8x512x512_2_1_1_2_0_0.rhsIdx_val_of_single rfl i k
theorem rhs_2 (i : S8x512x512.Idx) (k : dot_S8x512x128_S8x128x512_S8x512x512_2_1_1_2_0_0.contr.Idx) : (dot_S8x512x128_S8x128x512_S8x512x512_2_1_1_2_0_0.rhsIdx i k 2).val = (i 2).val := by
  unfold DotDims.rhsIdx
  rw [dif_neg (show ¬(2 : Fin S8x128x512.rank) ∈ dot_S8x512x128_S8x128x512_S8x512x512_2_1_1_2_0_0.rhsBatch by decide), dif_pos (show (2 : Fin S8x128x512.rank) ∈ dot_S8x512x128_S8x128x512_S8x512x512_2_1_1_2_0_0.rhsNonContracting by decide)]
  rfl

/-- The batched product of the tile's weights [8,512,128] with the tile's feature rows [8,128,512], into zero, at
    (b, q, f): the sum over the tile's keys. -/
theorem tile_matmul_apply (w : FVec Ideal S8x512x128 .bf16) (v : FVec Ideal S8x128x512 .bf16) (b : Fin 8) (q : Fin 512) (f : Fin 512) :
    matmul dot_S8x512x128_S8x128x512_S8x512x512_2_1_1_2_0_0 none w v (constant S8x512x512 .f32 0x00000000#32) (ix3 b q f)
      = ∑ j : Fin 128, w (ix3 b q j) * v (ix3 b j f) := by
  simp only [matmul]
  rw [Ideal.matmul_constant_zero_apply, ← Equiv.sum_comp (contrEquiv1 dot_S8x512x128_S8x128x512_S8x512x512_2_1_1_2_0_0 128 rfl rfl).symm]
  refine Finset.sum_congr rfl fun k _ => ?_
  have hk := contrEquiv1_symm_val dot_S8x512x128_S8x128x512_S8x512x512_2_1_1_2_0_0 128 rfl rfl k
  have el : dot_S8x512x128_S8x128x512_S8x512x512_2_1_1_2_0_0.lhsIdx (ix3 b q f) ((contrEquiv1 dot_S8x512x128_S8x128x512_S8x512x512_2_1_1_2_0_0 128 rfl rfl).symm k) = ix3 b q k := funext fun a => Fin.ext (by
    match a with
    | ⟨0, _⟩ => exact lhs_0 _ _
    | ⟨1, _⟩ => exact lhs_1 _ _
    | ⟨2, _⟩ => exact (lhs_2 _ _).trans hk)
  have er : dot_S8x512x128_S8x128x512_S8x512x512_2_1_1_2_0_0.rhsIdx (ix3 b q f) ((contrEquiv1 dot_S8x512x128_S8x128x512_S8x512x512_2_1_1_2_0_0 128 rfl rfl).symm k) = ix3 b k f := funext fun a => Fin.ext (by
    match a with
    | ⟨0, _⟩ => exact rhs_0 _ _
    | ⟨1, _⟩ => exact (rhs_1 _ _).trans hk
    | ⟨2, _⟩ => exact rhs_2 _ _)
  rw [el, er]

section
variable (x0 : Vec Ideal S8x512x1 .f32) (x1 : Vec Ideal S1x1x128 .f32) (x2 : Vec Ideal S8x128x512 .bf16)
variable (xm xl : Vec Ideal S8x512x1 .f32) (xacc : Vec Ideal S8x512x512 .f32)
variable (b : Fin 8) (q : Fin 512) (f : Fin 512)

/-- The new weighted sum. -/
theorem pay1_apply :
    k0_pay1 (k0_pay10 x0 x1 xm xm) (k0_pay13 x0 x1 xm) x2 xacc (ix3 b q f)
      = k0_pay10 x0 x1 xm xm (ix3 b q (0 : Fin 1)) * xacc (ix3 b q f)
        + ∑ j : Fin 128, k0_pay11 x0 x1 xm (ix3 b q j) * x2 (ix3 b j f) := by
  unfold k0_pay1
  rw [shapeCast_self, shapeCast_self]
  show broadcastTo S8x512x512 (k0_pay10 x0 x1 xm xm) _ (ix3 b q f) * xacc (ix3 b q f)
      + matmul dot_S8x512x128_S8x128x512_S8x512x512_2_1_1_2_0_0 none (k0_pay13 x0 x1 xm) x2 (constant S8x512x512 .f32 0x00000000#32) (ix3 b q f) = _
  rw [spread_lanes_apply, tile_matmul_apply]
  rfl

/-- The three buffers after a tile, at row (b, q) and column f, are one step of the tile-by-tile softmax recurrence from
    what they held, over the tile's scores and the tile's feature entries in column f. -/
theorem step_eq :
    (⟨k0_pay2 (k0_pay9 x0 x1 xm) (ix3 b q (0 : Fin 1)), k0_pay12 x0 x1 xm xm xl (ix3 b q (0 : Fin 1)),
        k0_pay1 (k0_pay10 x0 x1 xm xm) (k0_pay13 x0 x1 xm) x2 xacc (ix3 b q f)⟩ : St)
      = step (sRow x0 x1 b q) (fun j : Fin 128 => x2 (ix3 b j f))
          ⟨xm (ix3 b q (0 : Fin 1)), xl (ix3 b q (0 : Fin 1)), xacc (ix3 b q f)⟩ := by
  have e2 : k0_pay2 (k0_pay9 x0 x1 xm) = k0_pay9 x0 x1 xm := by unfold k0_pay2; exact shapeCast_self _ _
  rw [e2, pay12_apply, pay1_apply, pay10_apply]
  simp only [pay11_apply, pay9_apply]
  rfl

/-- The output entry at the last key tile: the weighted sum over the normaliser. -/
theorem pay3_apply (va : Vec Ideal S8x512x512 .f32) (vl : Vec Ideal S8x512x1 .f32) :
    k0_pay3 va vl (ix3 b q f) = Ideal.div (va (ix3 b q f)) (vl (ix3 b q (0 : Fin 1))) := by
  unfold k0_pay3
  show Ideal.div (va (ix3 b q f)) (broadcastTo S8x512x512 vl _ (ix3 b q f)) = _
  rw [spread_lanes_apply]

end

end Cert.Dtw.Payload
end
-- ==== Proof.Cases.lean ====
/-
  The three carried buffers point by point.

  At a grid point that starts a query tile (key tile 0) the buffers are reset to -inf, 0, 0 and then updated from the
  point's blocks; at every other point they are updated from what the point before left. Read at row (b, q) and
  feature column f, the triple (maximum, normaliser, weighted sum) therefore advances by one step of the tile-by-tile
  softmax recurrence per point, restarting from the empty state at each new query tile. At a point of the last key tile
  the first output block is the weighted sum over the normaliser and the second the scaled sum of its squares.
-/
import proofs.«138027_j7928509629105_2_alg».proof.Proof.Gen.KernelIdeal.Frame
import proofs.«138027_j7928509629105_2_alg».proof.Proof.Pieces
import proofs.«138027_j7928509629105_2_alg».proof.Proof.Payload
import Idealize.ShloMosaic.Lib.Pipeline.Value
import Idealize.ShloMosaic.Lib.ValueIdx

set_option maxRecDepth 16384

noncomputable section
open Idealize.ShloMosaic Idealize.ShloMosaic.TcCoe Idealize.SL.Sem

namespace Cert.Dtw.Cases
open Cert.KernelIdeal Cert.KernelIdeal.Gen Idealize.ShloMosaic.ValueIdx Cert.OnlineSoftmax Cert.Dtw.Pieces Cert.Dtw.Payload

variable (m : (ℓ : Loc nD τ sig) → Buf (Elt Ideal) ℓ) (c : Dev nD)

/-- The running-maximum, normaliser and weighted-sum buffers after the point at position n. -/
def mAt (n : ℕ) (h : n < cfg0.N) : Vec Ideal S8x512x1 .f32 := (outsAt0 m c n h).2.2.1
def lAt (n : ℕ) (h : n < cfg0.N) : Vec Ideal S8x512x1 .f32 := (outsAt0 m c n h).2.2.2.1
def accAt (n : ℕ) (h : n < cfg0.N) : Vec Ideal S8x512x512 .f32 := (outsAt0 m c n h).2.2.2.2

/-- The three input blocks at point t: a query tile's scalars, a key tile's scalars, the key tile's feature rows. -/
abbrev X0 (t : Fin cfg0.N) : Vec Ideal S8x512x1 .f32 := iblk m c 0 t
abbrev X1 (t : Fin cfg0.N) : Vec Ideal S1x1x128 .f32 := iblk m c 1 t
abbrev X2 (t : Fin cfg0.N) : Vec Ideal S8x128x512 .bf16 := iblk m c 2 t

theorem scratch_A (t : Fin cfg0.N) (h0 : t.val % 16 = 0) (h1 : ¬t.val % 16 = 15) :
    mAt m c t.val t.isLt = k0_pay2 (k0_pay9 (X0 m c t) (X1 m c t) (k0_pay5 (F := Ideal)))
    ∧ lAt m c t.val t.isLt = k0_pay12 (X0 m c t) (X1 m c t) (k0_pay5 (F := Ideal)) (k0_pay5 (F := Ideal)) (k0_pay6 (F := Ideal))
    ∧ accAt m c t.val t.isLt = k0_pay1 (k0_pay10 (X0 m c t) (X1 m c t) (k0_pay5 (F := Ideal)) (k0_pay5 (F := Ideal))) (k0_pay13 (X0 m c t) (X1 m c t) (k0_pay5 (F := Ideal))) (X2 m c t) (k0_pay7 (F := Ideal)) := by
  unfold mAt lAt accAt
  rw [outsAt0_A m c t h0 h1]
  dsimp only
  exact ⟨sA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t),
    sA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t),
    sA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (X0 m c t) (X1 m c t) (X2 m c t)⟩

theorem scratch_B (t : Fin cfg0.N) (h0 : ¬t.val % 16 = 0) (h1 : ¬t.val % 16 = 15) :
    mAt m c t.val t.isLt = k0_pay2 (k0_pay9 (X0 m c t) (X1 m c t) (mAt m c (t.val - 1) (Nat.lt_of_le_of_lt (Nat.sub_le _ _) t.isLt)))
    ∧ lAt m c t.val t.isLt = k0_pay12 (X0 m c t) (X1 m c t) (mAt m c (t.val - 1) (Nat.lt_of_le_of_lt (Nat.sub_le _ _) t.isLt)) (mAt m c (t.val - 1) (Nat.lt_of_le_of_lt (Nat.sub_le _ _) t.isLt)) (lAt m c (t.val - 1) (Nat.lt_of_le_of_lt (Nat.sub_le _ _) t.isLt))
    ∧ accAt m c t.val t.isLt = k0_pay1 (k0_pay10 (X0 m c t) (X1 m c t) (mAt m c (t.val - 1) (Nat.lt_of_le_of_lt (Nat.sub_le _ _) t.isLt)) (mAt m c (t.val - 1) (Nat.lt_of_le_of_lt (Nat.sub_le _ _) t.isLt))) (k0_pay13 (X0 m c t) (X1 m c t) (mAt m c (t.val - 1) (Nat.lt_of_le_of_lt (Nat.sub_le _ _) t.isLt))) (X2 m c t) (accAt m c (t.val - 1) (Nat.lt_of_le_of_lt (Nat.sub_le _ _) t.isLt)) := by
  unfold mAt lAt accAt
  rw [outsAt0_B m c t h0 h1]
  dsimp only
  exact ⟨sB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) _ _ _,
    sB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) _ _ _,
    sB2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (X0 m c t) (X1 m c t) (X2 m c t) _ _ _⟩

theorem scratch_C (t : Fin cfg0.N) (h0 : ¬t.val % 16 = 0) (h1 : t.val % 16 = 15) :
    mAt m c t.val t.isLt = k0_pay2 (k0_pay9 (X0 m c t) (X1 m c t) (mAt m c (t.val - 1) (Nat.lt_of_le_of_lt (Nat.sub_le _ _) t.isLt)))
    ∧ lAt m c t.val t.isLt = k0_pay12 (X0 m c t) (X1 m c t) (mAt m c (t.val - 1) (Nat.lt_of_le_of_lt (Nat.sub_le _ _) t.isLt)) (mAt m c (t.val - 1) (Nat.lt_of_le_of_lt (Nat.sub_le _ _) t.isLt)) (lAt m c (t.val - 1) (Nat.lt_of_le_of_lt (Nat.sub_le _ _) t.isLt))
    ∧ accAt m c t.val t.isLt = k0_pay1 (k0_pay10 (X0 m c t) (X1 m c t) (mAt m c (t.val - 1) (Nat.lt_of_le_of_lt (Nat.sub_le _ _) t.isLt)) (mAt m c (t.val - 1) (Nat.lt_of_le_of_lt (Nat.sub_le _ _) t.isLt))) (k0_pay13 (X0 m c t) (X1 m c t) (mAt m c (t.val - 1) (Nat.lt_of_le_of_lt (Nat.sub_le _ _) t.isLt))) (X2 m c t) (accAt m c (t.val - 1) (Nat.lt_of_le_of_lt (Nat.sub_le _ _) t.isLt)) := by
  unfold mAt lAt accAt
  rw [outsAt0_C m c t h0 h1]
  dsimp only
  exact ⟨sC0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) _ _ _,
    sC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) _ _ _,
    sC2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) _ _ _⟩

/-- At a point of the last key tile the output blocks are the quotient and the scaled sum of its squares, of the
    buffers as the point leaves them. -/
theorem outs_C (t : Fin cfg0.N) (h0 : ¬t.val % 16 = 0) (h1 : t.val % 16 = 15) :
    (outsAt0 m c t.val t.isLt).1 = k0_pay3 (accAt m c t.val t.isLt) (lAt m c t.val t.isLt)
    ∧ (outsAt0 m c t.val t.isLt).2.1 = k0_pay4 (accAt m c t.val t.isLt) (lAt m c t.val t.isLt) := by
  obtain ⟨-, hl, ha⟩ := scratch_C m c t h0 h1
  rw [hl, ha]
  rw [outsAt0_C m c t h0 h1]
  dsimp only
  exact ⟨oC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) _ _ _,
    oC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (X0 m c t) (X1 m c t) (X2 m c t) _ _ _⟩

/-- The triple (maximum, normaliser, weighted sum) at row (b, q), column f, after the point at position n. -/
def stAt (n : ℕ) (h : n < cfg0.N) (b : Fin 8) (q : Fin 512) (f : Fin 512) : St :=
  ⟨mAt m c n h (ix3 b q (0 : Fin 1)), lAt m c n h (ix3 b q (0 : Fin 1)), accAt m c n h (ix3 b q f)⟩

/-- At a point that is not the first of its query tile the triple advances by one step over the point's key tile. -/
theorem st_step (t : Fin cfg0.N) (h0 : ¬t.val % 16 = 0) (b : Fin 8) (q : Fin 512) (f : Fin 512) :
    stAt m c t.val t.isLt b q f
      = step (sRow (X0 m c t) (X1 m c t) b q) (fun j : Fin 128 => X2 m c t (ix3 b j f)) (stAt m c (t.val - 1) (Nat.lt_of_le_of_lt (Nat.sub_le _ _) t.isLt) b q f) := by
  unfold stAt
  by_cases h1 : t.val % 16 = 15
  · obtain ⟨e0, e1, e2⟩ := scratch_C m c t h0 h1
    rw [e0, e1, e2]
    exact step_eq (X0 m c t) (X1 m c t) (X2 m c t) (mAt m c (t.val - 1) (Nat.lt_of_le_of_lt (Nat.sub_le _ _) t.isLt)) (lAt m c (t.val - 1) (Nat.lt_of_le_of_lt (Nat.sub_le _ _) t.isLt)) (accAt m c (t.val - 1) (Nat.lt_of_le_of_lt (Nat.sub_le _ _) t.isLt)) b q f
  · obtain ⟨e0, e1, e2⟩ := scratch_B m c t h0 h1
    rw [e0, e1, e2]
    exact step_eq (X0 m c t) (X1 m c t) (X2 m c t) (mAt m c (t.val - 1) (Nat.lt_of_le_of_lt (Nat.sub_le _ _) t.isLt)) (lAt m c (t.val - 1) (Nat.lt_of_le_of_lt (Nat.sub_le _ _) t.isLt)) (accAt m c (t.val - 1) (Nat.lt_of_le_of_lt (Nat.sub_le _ _) t.isLt)) b q f

/-- At the first point of a query tile it is one step from the empty state. -/
theorem st_first (t : Fin cfg0.N) (h0 : t.val % 16 = 0) (b : Fin 8) (q : Fin 512) (f : Fin 512) :
    stAt m c t.val t.isLt b q f
      = step (sRow (X0 m c t) (X1 m c t) b q) (fun j : Fin 128 => X2 m c t (ix3 b j f)) init := by
  unfold stAt
  obtain ⟨e0, e1, e2⟩ := scratch_A m c t h0 (by omega)
  rw [e0, e1, e2]
  refine (step_eq (X0 m c t) (X1 m c t) (X2 m c t) (k0_pay5 (F := Ideal)) (k0_pay6 (F := Ideal)) (k0_pay7 (F := Ideal)) b q f).trans ?_
  have z5 : (k0_pay5 (F := Ideal)) (ix3 b q (0 : Fin 1)) = (⊥ : EReal) := by
    unfold k0_pay5; rw [shapeCast_self]; exact ofBits_neg_inf
  have z6 : (k0_pay6 (F := Ideal)) (ix3 b q (0 : Fin 1)) = (0 : EReal) := by
    unfold k0_pay6; rw [shapeCast_self]; exact Ideal.ofBits_zero_f32
  have z7 : (k0_pay7 (F := Ideal)) (ix3 b q f) = (0 : EReal) := by
    unfold k0_pay7; rw [shapeCast_self]; exact Ideal.ofBits_zero_f32
  rw [z5, z6, z7]
  rfl

end Cert.Dtw.Cases
end
-- ==== Proof.Rows.lean ====
/-
  Where a tile's entries sit in the whole arrays. The 2048 query rows are cut into 4 tiles of 512, the 2048 template
  positions into 16 tiles of 128, and the grid's 64 points are numbered query tile by query tile: point n works on
  query tile n / 16 and key tile n % 16.
-/
import Mathlib.Data.Fin.Basic
import Mathlib.Tactic

namespace Cert.Dtw

/-- Row q of query tile qi. -/
def qrow (qi : Fin 4) (q : Fin 512) : Fin 2048 := ⟨qi.val * 512 + q.val, by have := qi.isLt; have := q.isLt; omega⟩

/-- Position j of key tile k (k < 16). -/
def krow (k : ℕ) (hk : k < 16) (j : Fin 128) : Fin 2048 := ⟨k * 128 + j.val, by have := j.isLt; omega⟩

/-- The query tile of grid point n (n < 64). -/
def qtile (n : ℕ) (hn : n < 64) : Fin 4 := ⟨n / 16, by omega⟩

theorem qrow_val (qi : Fin 4) (q : Fin 512) : (qrow qi q).val = qi.val * 512 + q.val := rfl
theorem krow_val (k : ℕ) (hk : k < 16) (j : Fin 128) : (krow k hk j).val = k * 128 + j.val := rfl
theorem qtile_val (n : ℕ) (hn : n < 64) : (qtile n hn).val = n / 16 := rfl

end Cert.Dtw
-- ==== Proof.Blocks.lean ====
/-
  What each input block holds, read back to the argument arrays.

  The grid's 64 points are numbered query tile by query tile: point t works on query tile t / 16 and key tile
  t % 16. At point t the first window's block is rows (t / 16) * 512 + q of the scores, the second window's block is
  positions (t % 16) * 128 + j of the template (staged transposed, so that the positions run along the last axis),
  and the third window's block is rows (t % 16) * 128 + j of the features (staged after a change of format that is
  the identity on extended reals). A block's entry at a coordinate inside the block is the array's entry at
  block index × block size + that coordinate, on every axis.
-/
import proofs.«138027_j7928509629105_2_alg».proof.Proof.Gen.KernelIdeal.Frame
import proofs.«138027_j7928509629105_2_alg».proof.Proof.Rows
import Idealize.ShloMosaic.Lib.Pipeline.Value
import Idealize.ShloMosaic.Lib.StableHlo.Run
import Idealize.ShloMosaic.Lib.ValueIdx

noncomputable section

namespace Cert.Dtw.Blocks

open Idealize.ShloMosaic Idealize.ShloMosaic.TcCoe Idealize.ShloMosaic.ValueIdx Idealize.SL.Sem
open Cert.KernelIdeal Cert.KernelIdeal.Gen

/-- The first window's block index at point t is (0, t / 16, 0). -/
theorem index0 : ∀ t : Fin cfg0.N, win0_0.index t 0 = 0 ∧ win0_0.index t 1 = t.val / 16 ∧ win0_0.index t 2 = 0 :=
  (by decide +kernel : ∀ t : Fin grid0.N, win0_0.index t 0 = 0 ∧ win0_0.index t 1 = t.val / 16 ∧ win0_0.index t 2 = 0)

/-- The second window's block index at point t is (0, 0, t % 16). -/
theorem index1 : ∀ t : Fin cfg0.N, win0_1.index t 0 = 0 ∧ win0_1.index t 1 = 0 ∧ win0_1.index t 2 = t.val % 16 :=
  (by decide +kernel : ∀ t : Fin grid0.N, win0_1.index t 0 = 0 ∧ win0_1.index t 1 = 0 ∧ win0_1.index t 2 = t.val % 16)

/-- The third window's block index at point t is (0, t % 16, 0). -/
theorem index2 : ∀ t : Fin cfg0.N, win0_2.index t 0 = 0 ∧ win0_2.index t 1 = t.val % 16 ∧ win0_2.index t 2 = 0 :=
  (by decide +kernel : ∀ t : Fin grid0.N, win0_2.index t 0 = 0 ∧ win0_2.index t 1 = t.val % 16 ∧ win0_2.index t 2 = 0)

variable (m : (ℓ : Loc nD τ sig) → Buf (Elt Ideal) ℓ) (c : Dev nD) (t : Fin cfg0.N)

/-- The template as the region finds it: the argument transposed, positions along the last axis. -/
theorem V_main_v0 : (V m c main_v0 : S1x1x2048.Idx → EReal)
    = transpose S1x1x2048 [0, 2, 1] (m ((c : Thread nD τ).loc main_arg2)) transposes_S1x2048x1_S1x1x2048_0_2_1 := by
  show StableHlo.after hostOps0 (fun b => m (c, b)) (Proc.devRef .tc main_v0) = _
  after_results

/-- The features as the region finds them: the argument after a change of format, which is the identity on extended
    reals. -/
theorem V_main_v1_apply (i : S8x2048x512.Idx) :
    (V m c main_v1 : S8x2048x512.Idx → EReal) i = m ((c : Thread nD τ).loc main_arg1) i := by
  have e : (V m c main_v1 : S8x2048x512.Idx → EReal)
      = (truncf (F := Ideal) .bf16 (m ((c : Thread nD τ).loc main_arg1) : FVec Ideal S8x2048x512 .f32) bitsLt_bf16_f32
          : FVec Ideal S8x2048x512 .bf16) := by
    show StableHlo.after hostOps0 (fun b => m (c, b)) (Proc.devRef .tc main_v1) = _
    after_results
  exact congrFun e i

/-- THE FIRST WINDOW'S BLOCK at point t: rows (t / 16) * 512 + q of the scores. -/
theorem iblk0_apply (ht : t.val < 64) (b : Fin 8) (q : Fin 512) :
    (iblk m c 0 t : Vec Ideal S8x512x1 .f32) (ix3 b q (0 : Fin 1))
      = m ((c : Thread nD τ).loc main_arg0) (ix3 b (Cert.Dtw.qrow (Cert.Dtw.qtile t.val ht) q) (0 : Fin 1)) := by
  obtain ⟨i0, i1, i2⟩ := index0 t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * b.val = b.val; rw [i0]; omega
  | ⟨1, _⟩ => show win0_0.index t 1 * 512 + 1 * q.val = t.val / 16 * 512 + q.val; rw [i1]; omega
  | ⟨2, _⟩ => show win0_0.index t 2 * 1 + 1 * 0 = 0; rw [i2]

/-- THE SECOND WINDOW'S BLOCK at point t: positions (t % 16) * 128 + j of the template. -/
theorem iblk1_apply (j : Fin 128) :
    (iblk m c 1 t : Vec Ideal S1x1x128 .f32) (ix3 (0 : Fin 1) (0 : Fin 1) j)
      = m ((c : Thread nD τ).loc main_arg2)
          (ix3 (0 : Fin 1) (Cert.Dtw.krow (t.val % 16) (Nat.mod_lt _ (by decide)) j) (0 : Fin 1)) := by
  obtain ⟨i0, i1, i2⟩ := index1 t
  unfold iblk
  rw [View.read_apply]
  show (V m c main_v0 : S1x1x2048.Idx → EReal) _ = _
  rw [V_main_v0]
  exact transpose_apply [0, 2, 1] (m ((c : Thread nD τ).loc main_arg2)) transposes_S1x2048x1_S1x1x2048_0_2_1 _
    (ix3 (0 : Fin 1) (Cert.Dtw.krow (t.val % 16) (Nat.mod_lt _ (by decide)) j) (0 : Fin 1)) (fun b => by
      match b with
      | ⟨0, _⟩ => show 0 = win0_1.index t 0 * 1 + 1 * 0; rw [i0]
      | ⟨1, _⟩ => show 0 = win0_1.index t 1 * 1 + 1 * 0; rw [i1]
      | ⟨2, _⟩ => show t.val % 16 * 128 + j.val = win0_1.index t 2 * 128 + 1 * j.val; rw [i2]; omega)

/-- THE THIRD WINDOW'S BLOCK at point t: rows (t % 16) * 128 + j of the features. -/
theorem iblk2_apply (b : Fin 8) (j : Fin 128) (f : Fin 512) :
    (iblk m c 2 t : Vec Ideal S8x128x512 .bf16) (ix3 b j f)
      = m ((c : Thread nD τ).loc main_arg1) (ix3 b (Cert.Dtw.krow (t.val % 16) (Nat.mod_lt _ (by decide)) j) f) := by
  obtain ⟨i0, i1, i2⟩ := index2 t
  unfold iblk
  rw [View.read_apply]
  show (V m c main_v1 : S8x2048x512.Idx → EReal) _ = _
  rw [V_main_v1_apply]
  refine congrArg (m ((c : Thread nD τ).loc main_arg1)) (funext fun a => Fin.ext ?_)
  match a with
  | ⟨0, _⟩ => show win0_2.index t 0 * 8 + 1 * b.val = b.val; rw [i0]; omega
  | ⟨1, _⟩ => show win0_2.index t 1 * 128 + 1 * j.val = t.val % 16 * 128 + j.val; rw [i1]; omega
  | ⟨2, _⟩ => show win0_2.index t 2 * 512 + 1 * f.val = f.val; rw [i2]; omega

end Cert.Dtw.Blocks

end
-- ==== Proof.Spec.lean ====
/-
  The mathematics the two programs share, over the reals.

  For one query row with scores `s t` and values `v t` the softmax-weighted sum is
  `(sum_t exp (s t) * v t) / (sum_t exp (s t))`: no reference point is needed to say what it is, and subtracting any
  real constant from every score leaves it unchanged. Here the scores of row `(b, i)` are `-|S b i - T j|` over the
  template positions `j`, the values are column `f` of the feature rows `Fe b j f`, and the second result is a fixed
  scalar function (`tail`) of the sum of the squares of all the weighted sums.
-/
import Idealize.ShloMosaic.PureOps.Ideal
import Idealize.ShloMosaic.PureOps.Vector
import proofs.«138027_j7928509629105_2_alg».proof.Proof.LibOnlineSoftmax

noncomputable section

namespace Cert.Dtw

open Idealize.ShloMosaic Cert.OnlineSoftmax

/-- The softmax-weighted sum of real values `v` under real scores `s`. -/
def wsum {N : ℕ} (s v : Fin N → ℝ) : ℝ := (∑ t, Real.exp (s t) * v t) * (1 / ∑ t, Real.exp (s t))

/-- A plain softmax row (maximum subtracted, exponentials normalised, values weighed) of real scores and values is
    that weighted sum: the maximum cancels between numerator and denominator. -/
theorem refRow_eq_wsum {N : ℕ} (hN : 0 < N) (s v : Fin N → ℝ) :
    refRow (fun t => ((s t : ℝ) : EReal)) (fun t => ((v t : ℝ) : EReal)) = ((wsum s v : ℝ) : EReal) := by
  haveI : Nonempty (Fin N) := ⟨⟨0, hN⟩⟩
  obtain ⟨M, hM⟩ := refRow_coe hN s v
  rw [hM]
  congr 1
  have h := weighted_sum_shift s v 0 M
  simp only [sub_zero] at h
  exact h.symm

/-- Subtracting a constant from every score does not change the weighted sum. -/
theorem wsum_shift {N : ℕ} (hN : 0 < N) (s v : Fin N → ℝ) (D : ℝ) : wsum (fun t => s t - D) v = wsum s v := by
  haveI : Nonempty (Fin N) := ⟨⟨0, hN⟩⟩
  have h1 := weighted_sum_shift s v D 0
  simp only [sub_zero] at h1
  unfold wsum
  rw [h1, Finset.sum_mul]
  exact Finset.sum_congr rfl fun t _ => by ring

/-- Entry `(b, i, f)` of the first result: row `(b, i)`'s scores are minus the distances to the template positions, its
    values column `f` of batch `b`'s feature rows. -/
def warpedR (S : Fin 8 → Fin 2048 → ℝ) (T : Fin 2048 → ℝ) (Fe : Fin 8 → Fin 2048 → Fin 512 → ℝ)
    (b : Fin 8) (i : Fin 2048) (f : Fin 512) : ℝ :=
  wsum (fun j : Fin 2048 => -|S b i - T j|) (fun j => Fe b j f)

/-- The sum of the squares of every entry of the first result. -/
def sumsq (S : Fin 8 → Fin 2048 → ℝ) (T : Fin 2048 → ℝ) (Fe : Fin 8 → Fin 2048 → Fin 512 → ℝ) : ℝ :=
  ∑ b : Fin 8, ∑ i : Fin 2048, ∑ f : Fin 512, warpedR S T Fe b i f * warpedR S T Fe b i f

/-- The rank-0 shape of the second result. -/
abbrev S0 : Shape := ⟨0, ![]⟩

/-- What both programs do last with the sum of squares: its square root times one fixed f32 constant. -/
def tail (y : FVec Ideal S0 .f32) : FVec Ideal S0 .f32 :=
  mulf (constant (F := Ideal) S0 .f32 0x33D6BF95#32) (Host.sqrt (F := Ideal) y)

end Cert.Dtw

end
-- ==== Proof.Invariant.lean ====
/-
  The carried buffers are the tile-by-tile softmax recurrence over the whole arrays.

  For query tile qi, after the point of key tile k the triple (maximum, normaliser, weighted sum) at row (b, q) and
  feature column f is the recurrence run over key tiles 0..k of row (b, qi·512 + q): the scores are minus the distances
  between the row's scalar and the template's scalars, the values the feature rows' entries in column f. After the last
  key tile, for real arguments, the weighted sum over the normaliser is the softmax-weighted sum of the whole row.
-/
import proofs.«138027_j7928509629105_2_alg».proof.Proof.Cases
import proofs.«138027_j7928509629105_2_alg».proof.Proof.Blocks
import proofs.«138027_j7928509629105_2_alg».proof.Proof.Spec
import proofs.«138027_j7928509629105_2_alg».proof.Proof.Rows

set_option maxRecDepth 16384

noncomputable section
open Idealize.ShloMosaic Idealize.ShloMosaic.TcCoe Idealize.SL.Sem

namespace Cert.Dtw.Invariant
open Cert.KernelIdeal Cert.KernelIdeal.Gen Idealize.ShloMosaic.ValueIdx Cert.OnlineSoftmax Cert.Dtw.Payload Cert.Dtw.Cases Cert.Dtw.Blocks

variable (m : (ℓ : Loc nD τ sig) → Buf (Elt Ideal) ℓ) (c : Dev nD)

/-- Row (b, i)'s scores against key tile k, and batch b's feature entries of key tile k in column f (zero past the
    sixteenth tile, which no point reads). -/
def sAll (b : Fin 8) (i : Fin 2048) (k : ℕ) (j : Fin 128) : EReal :=
  if hk : k < 16 then score (m ((c : Thread nD τ).loc main_arg0) (ix3 b i (0 : Fin 1)))
    (m ((c : Thread nD τ).loc main_arg2) (ix3 (0 : Fin 1) (krow k hk j) (0 : Fin 1))) else 0
def vAll (b : Fin 8) (f : Fin 512) (k : ℕ) (j : Fin 128) : EReal :=
  if hk : k < 16 then m ((c : Thread nD τ).loc main_arg1) (ix3 b (krow k hk j) f) else 0

theorem stAt_congr {n n' : ℕ} (e : n = n') (h : n < cfg0.N) (h' : n' < cfg0.N) (b : Fin 8) (q : Fin 512) (f : Fin 512) :
    stAt m c n h b q f = stAt m c n' h' b q f := by subst e; rfl

theorem krow_congr {k k' : ℕ} (e : k = k') (hk : k < 16) (hk' : k' < 16) (j : Fin 128) : krow k hk j = krow k' hk' j := by
  subst e; rfl

theorem qtile_eq (qi : Fin 4) (k : ℕ) (hk : k < 16) (h : qi.val * 16 + k < 64) : qtile (qi.val * 16 + k) h = qi :=
  Fin.ext (by rw [qtile_val]; omega)

/-- The point's blocks are the row's tile of scores and the tile's feature entries. -/
theorem blocks_at (qi : Fin 4) (k : ℕ) (hk : k < 16) (h : qi.val * 16 + k < cfg0.N) (b : Fin 8) (q : Fin 512) (f : Fin 512) :
    sRow (X0 m c ⟨qi.val * 16 + k, h⟩) (X1 m c ⟨qi.val * 16 + k, h⟩) b q = sAll m c b (qrow qi q) k
    ∧ (fun j : Fin 128 => X2 m c ⟨qi.val * 16 + k, h⟩ (ix3 b j f)) = vAll m c b f k := by
  have h64 : qi.val * 16 + k < 64 := lt_of_lt_of_eq h N_0
  have hm : (qi.val * 16 + k) % 16 = k := by omega
  constructor
  · funext j
    unfold sRow sAll
    rw [dif_pos hk]
    show score ((iblk m c 0 ⟨qi.val * 16 + k, h⟩ : Vec Ideal S8x512x1 .f32) (ix3 b q (0 : Fin 1)))
        ((iblk m c 1 ⟨qi.val * 16 + k, h⟩ : Vec Ideal S1x1x128 .f32) (ix3 (0 : Fin 1) (0 : Fin 1) j)) = _
    rw [iblk0_apply m c ⟨qi.val * 16 + k, h⟩ h64 b q, iblk1_apply m c ⟨qi.val * 16 + k, h⟩ j]
    rw [qtile_eq qi k hk h64, krow_congr hm _ hk j]
  · funext j
    unfold vAll
    rw [dif_pos hk]
    show (iblk m c 2 ⟨qi.val * 16 + k, h⟩ : Vec Ideal S8x128x512 .bf16) (ix3 b j f) = _
    rw [iblk2_apply m c ⟨qi.val * 16 + k, h⟩ b j f, krow_congr hm _ hk j]

/-- After the point of key tile k of query tile qi the triple is the recurrence over tiles 0..k. -/
theorem st_eq_run (qi : Fin 4) (b : Fin 8) (q : Fin 512) (f : Fin 512) :
    ∀ (k : ℕ) (hk : k < 16) (h : qi.val * 16 + k < cfg0.N),
      stAt m c (qi.val * 16 + k) h b q f = run (sAll m c b (qrow qi q)) (vAll m c b f) (k + 1)
  | 0, hk, h => by
    obtain ⟨e1, e2⟩ := blocks_at m c qi 0 hk h b q f
    refine (st_first m c ⟨qi.val * 16 + 0, h⟩ (by show (qi.val * 16 + 0) % 16 = 0; omega) b q f).trans ?_
    rw [e1, e2]
    rfl
  | k + 1, hk, h => by
    have hN : cfg0.N = 64 := N_0
    have ih := st_eq_run qi b q f k (by omega) (by omega)
    obtain ⟨e1, e2⟩ := blocks_at m c qi (k + 1) hk h b q f
    refine (st_step m c ⟨qi.val * 16 + (k + 1), h⟩ (by show ¬(qi.val * 16 + (k + 1)) % 16 = 0; omega) b q f).trans ?_
    rw [e1, e2, stAt_congr m c (show (⟨qi.val * 16 + (k + 1), h⟩ : Fin cfg0.N).val - 1 = qi.val * 16 + k by show qi.val * 16 + (k + 1) - 1 = _; omega) _ (by omega) b q f, ih]
    rfl

/-- The score of two real scalars is minus their distance. -/
theorem score_coe (x y : ℝ) : score (x : EReal) (y : EReal) = ((-|x - y| : ℝ) : EReal) := by
  unfold score
  rw [← EReal.coe_sub, ← EReal.coe_neg, coe_max, zero_sub, ← EReal.coe_neg]
  congr 2

theorem wsum_cast {N N' : ℕ} (e : N = N') (s v : Fin N' → ℝ) :
    wsum (fun t : Fin N => s (Fin.cast e t)) (fun t : Fin N => v (Fin.cast e t)) = wsum s v := by
  subst e; rfl

/-- After the last key tile, for real arguments, the weighted sum over the normaliser at row (b, q), column f, is the
    softmax-weighted sum of the whole row. -/
theorem quotient_eq (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal))
    (qi : Fin 4) (h : qi.val * 16 + 15 < cfg0.N) (b : Fin 8) (q : Fin 512) (f : Fin 512) :
    Ideal.div (accAt m c (qi.val * 16 + 15) h (ix3 b q f)) (lAt m c (qi.val * 16 + 15) h (ix3 b q (0 : Fin 1)))
      = ((warpedR S T Fe b (qrow qi q) f : ℝ) : EReal) := by
  have hst := st_eq_run m c qi b q f 15 (by omega) h
  have hacc : accAt m c (qi.val * 16 + 15) h (ix3 b q f) = (run (sAll m c b (qrow qi q)) (vAll m c b f) 16).acc :=
    congrArg St.acc hst
  have hl : lAt m c (qi.val * 16 + 15) h (ix3 b q (0 : Fin 1)) = (run (sAll m c b (qrow qi q)) (vAll m c b f) 16).l :=
    congrArg St.l hst
  rw [hacc, hl]
  have e2048 : 16 * 128 = 2048 := by norm_num
  have hflat : ∀ (k : ℕ) (hk : k < 16) (j : Fin 128), Fin.cast e2048 (flat k hk j) = krow k hk j := fun k hk j => Fin.ext rfl
  rw [run_div_eq_refRow (n := 16) (K := 128) (by norm_num) (by norm_num)
    (fun t => -|S b (qrow qi q) - T (Fin.cast e2048 t)|) (fun t => Fe b (Fin.cast e2048 t) f)
    (sAll m c b (qrow qi q)) (vAll m c b f)
    (fun k hk j => by unfold sAll; rw [dif_pos hk, h0, h2, score_coe, hflat])
    (fun k hk j => by unfold vAll; rw [dif_pos hk, h1, hflat]),
    refRow_eq_wsum (by norm_num)]
  unfold warpedR
  exact congrArg _ (wsum_cast e2048 (fun j => -|S b (qrow qi q) - T j|) (fun j => Fe b j f))

end Cert.Dtw.Invariant
end
-- ==== Proof.TileSum.lean ====
/-
  The second output of a query tile, and the sum the host takes of the four tiles.

  At its last key tile a query tile's block of the second output holds, in every entry, the sum of the squares of the
  tile's 8 × 512 × 512 output entries times the constant 1/1024. The host then adds up all 4 × 8 × 128 entries of the
  second output: each tile contributes 8 · 128 = 1024 copies of its sum of squares over 1024, that is its sum of
  squares. The 2048 query rows being the 4 tiles' runs of 512 rows, the four sums of squares add up to the sum of
  the squares of the whole first result.
-/
import proofs.«138027_j7928509629105_2_alg».proof.Proof.Gen.KernelIdeal.Skeleton
import proofs.«138027_j7928509629105_2_alg».proof.Proof.Payload
import proofs.«138027_j7928509629105_2_alg».proof.Proof.LibGroupAxes
import proofs.«138027_j7928509629105_2_alg».proof.Proof.LibOnlineSoftmax
import proofs.«138027_j7928509629105_2_alg».proof.Proof.Spec
import proofs.«138027_j7928509629105_2_alg».proof.Proof.Rows
import Idealize.ShloMosaic.Lib.Pipeline.Value
import Idealize.ShloMosaic.Lib.ValueIdx
import Idealize.ShloMosaic.PureOps.Ideal.Laws

set_option maxRecDepth 16384

noncomputable section

namespace Cert.Dtw.TileSum

open Idealize.ShloMosaic Idealize.ShloMosaic.TcCoe Idealize.ShloMosaic.ValueIdx Idealize.SL.Sem
open Cert.KernelIdeal Cert.KernelIdeal.Gen Cert.OnlineSoftmax Cert.LibGroupAxes

/-! ## Sums over the coordinates of a rank-3 index -/

/-- A rank-3 index set is the product of its three coordinate ranges. -/
def coords3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_coords3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (coords3 (n0 := n0) (n1 := n1) (n2 := n2)).symm f, Fintype.sum_prod_type]
  refine Finset.sum_congr rfl fun a _ => ?_
  rw [Fintype.sum_prod_type]
  rfl

/-! ## The three sums of the tile's squares, axis by axis -/

/-- On the extended reals, the sum over the middle axis of [A, B, 1] at (p, 0) is the sum over the B rows. -/
theorem mid_sum_apply {A B : Nat} (src : FVec Ideal ⟨3, ![A, B, 1]⟩ .f32) (acc : BitVec 32)
    (h : (⟨3, ![A, B, 1]⟩ : Shape).Reduces [(1 : Fin 3)] ⟨2, ![A, 1]⟩) (hφ : FKind.Formats .f32)
    (hacc : acc = FKind.add.neutral .f32 hφ) (p : Fin A) :
    multiReduction .add [(1 : Fin 3)] ⟨2, ![A, 1]⟩ src acc h hφ hacc (ix2 p (0 : Fin 1))
      = ∑ g : Fin B, src (ix3 p g (0 : Fin 1)) :=
  (Ideal.multiReduction_add_single src acc h hφ hacc (ix2 p (0 : Fin 1))).trans
    (Finset.sum_congr rfl fun k _ => congrArg src (funext fun ax => Fin.ext (by
      match ax with | ⟨0, _⟩ => rfl | ⟨1, _⟩ => rfl | ⟨2, _⟩ => rfl)))

/-- On the extended reals, the sum over the first axis of [A, 1, 1] at (0, 0) is the sum over the A slabs. -/
theorem top_sum_apply {A : Nat} (src : FVec Ideal ⟨3, ![A, 1, 1]⟩ .f32) (acc : BitVec 32)
    (h : (⟨3, ![A, 1, 1]⟩ : Shape).Reduces [(0 : Fin 3)] ⟨2, ![1, 1]⟩) (hφ : FKind.Formats .f32)
    (hacc : acc = FKind.add.neutral .f32 hφ) :
    multiReduction .add [(0 : Fin 3)] ⟨2, ![1, 1]⟩ src acc h hφ hacc (ix2 (0 : Fin 1) (0 : Fin 1))
      = ∑ p : Fin A, src (ix3 p (0 : Fin 1) (0 : Fin 1)) :=
  (Ideal.multiReduction_add_single src acc h hφ hacc (ix2 (0 : Fin 1) (0 : Fin 1))).trans
    (Finset.sum_congr rfl fun k _ => congrArg src (funext fun ax => Fin.ext (by
      match ax with | ⟨0, _⟩ => rfl | ⟨1, _⟩ => rfl | ⟨2, _⟩ => rfl)))

/-- One value laid over every entry of [1, B, C]. -/
theorem one_lanes_apply {α : Type} {B C : Nat} (v : (⟨3, ![1, 1, 1]⟩ : Shape).Idx → α)
    (h : (⟨3, ![1, 1, 1]⟩ : Shape).Broadcasts ⟨3, ![1, B, C]⟩) (r : Fin B) (l : Fin C) :
    broadcastTo ⟨3, ![1, B, C]⟩ v h (ix3 (0 : Fin 1) r l) = v (ix3 (0 : Fin 1) (0 : Fin 1) (0 : Fin 1)) :=
  broadcastTo_apply v h (ix3 (0 : Fin 1) r l) (ix3 (0 : Fin 1) (0 : Fin 1) (0 : Fin 1)) (fun ax => match ax with
    | ⟨0, _⟩ => by
        show 0 = if (1 : Nat) = 1 then 0 else 0
        rw [if_pos rfl]
    | ⟨1, _⟩ => by
        show 0 = if (1 : Nat) = 1 then 0 else r.val
        rw [if_pos rfl]
    | ⟨2, _⟩ => by
        show 0 = if (1 : Nat) = 1 then 0 else l.val
        rw [if_pos rfl])

/-- THE SECOND OUTPUT'S BLOCK at the last key tile: in every entry, the sum of the squares of the tile's output entries
    times the constant. -/
theorem pay4_apply (va : Vec Ideal S8x512x512 .f32) (vl : Vec Ideal S8x512x1 .f32) (r : Fin 8) (l : Fin 128) :
    k0_pay4 va vl (ix3 (0 : Fin 1) r l)
      = (∑ b : Fin 8, ∑ q : Fin 512, ∑ f : Fin 512, k0_pay3 va vl (ix3 b q f) * k0_pay3 va vl (ix3 b q f))
          * Ideal.ofBits .f32 0x3A800000#32 := by
  unfold k0_pay4
  refine (one_lanes_apply _ _ r l).trans ?_
  rw [shapeCast_self]
  show shapeCast S1x1x1 (multiReduction .add [0] S1x1 _ 0x00000000#32 _ _ _) _ (ix3 (0 : Fin 1) (0 : Fin 1) (0 : Fin 1))
      * Ideal.ofBits .f32 0x3A800000#32 = _
  refine congrArg (· * Ideal.ofBits .f32 0x3A800000#32) ?_
  refine (keep_apply _ _ (0 : Fin 1) (0 : Fin 1)).trans ?_
  refine (top_sum_apply _ _ _ _ _).trans ?_
  refine Finset.sum_congr rfl fun b _ => ?_
  refine (keep_apply _ _ b (0 : Fin 1)).trans ?_
  refine (mid_sum_apply _ _ _ _ _ b).trans ?_
  refine Finset.sum_congr rfl fun q _ => ?_
  refine (keep_apply _ _ b q).trans ?_
  exact lane_sum_apply _ _ _ _ _ b q

/-! ## The constant, and the host's sum -/

/-- The word 0x3A800000 is 1/1024. -/
theorem ofBits_inv1024 : Ideal.ofBits .f32 0x3A800000#32 = (((1 : ℝ) / 1024 : ℝ) : EReal) := by
  simp [Ideal.ofBits, Ideal.ieee, -EReal.coe_mul]; norm_num

/-- The host's sum of all entries of an array [4, 8, 128] whose slab qi holds, in every entry, a real TR qi times the
    constant 1/1024: the 8 · 128 = 1024 copies of TR qi / 1024 add up to TR qi, and the four slabs to their sum. -/
theorem host_total (A4 : FVec Ideal S4x8x128 .f32) (TR : Fin 4 → ℝ)
    (h : ∀ (qi : Fin 4) (r : Fin 8) (l : Fin 128), A4 (ix3 qi r l) = ((TR qi : ℝ) : EReal) * Ideal.ofBits .f32 0x3A800000#32) :
    Host.reduceAdd (F := Ideal) A4 (constant (F := Ideal) S_ .f32 0x00000000#32) reducesTo_S4x8x128_S_d0_1_2 h_S_
      = fun _ => (((∑ qi, TR qi : ℝ)) : EReal) := by
  funext i
  simp only [Host.reduceAdd, Ideal.hostReduceAdd_def]
  refine (Ideal.hostReduceAdd_total reducesTo_S4x8x128_S_d0_1_2 (fun b => b.elim0) A4 _ i).trans ?_
  show Ideal.ofBits .f32 0x00000000#32 + _ = _
  rw [Ideal.ofBits_zero_f32, zero_add, sum_coords3, coe_sum]
  refine Finset.sum_congr rfl fun qi _ => ?_
  have hterm : ∀ (r : Fin 8) (l : Fin 128), A4 (ix3 qi r l) = ((TR qi * (1 / 1024) : ℝ) : EReal) := fun r l => by
    rw [h qi r l, ofBits_inv1024, ← EReal.coe_mul]
  rw [Finset.sum_congr rfl fun r _ => Finset.sum_congr rfl fun l _ => hterm r l]
  simp only [← coe_sum]
  congr 1
  simp only [Finset.sum_const, Finset.card_univ, Fintype.card_fin, nsmul_eq_mul]
  push_cast
  ring

/-! ## The 2048 query rows are four runs of 512 -/

/-- Row q of tile qi, as a bijection between the pairs (tile, row in the tile) and the rows. -/
def tileEquiv : Fin 4 × Fin 512 ≃ Fin 2048 where
  toFun p := Cert.Dtw.qrow p.1 p.2
  invFun i := (⟨i.val / 512, by have := i.isLt; omega⟩, ⟨i.val % 512, Nat.mod_lt _ (by decide)⟩)
  left_inv p := by
    obtain ⟨qi, q⟩ := p
    have h1 := qi.isLt
    have h2 := q.isLt
    refine Prod.ext (Fin.ext ?_) (Fin.ext ?_)
    · show (qi.val * 512 + q.val) / 512 = qi.val
      omega
    · show (qi.val * 512 + q.val) % 512 = q.val
      omega
  right_inv i := Fin.ext (by
    show i.val / 512 * 512 + i.val % 512 = i.val
    omega)

/-- A sum over the rows is the sum over the tiles of the sums over each tile's rows. -/
theorem sum_rows (g : Fin 2048 → ℝ) : ∑ qi : Fin 4, ∑ q : Fin 512, g (Cert.Dtw.qrow qi q) = ∑ i, g i := by
  rw [← tileEquiv.sum_comp g, Fintype.sum_prod_type]
  rfl

/-- The four tiles' sums of squares add up to the sum of the squares of the whole first result. -/
theorem sumsq_tiles (S : Fin 8 → Fin 2048 → ℝ) (T : Fin 2048 → ℝ) (Fe : Fin 8 → Fin 2048 → Fin 512 → ℝ) :
    ∑ qi : Fin 4, ∑ b : Fin 8, ∑ q : Fin 512, ∑ f : Fin 512,
        Cert.Dtw.warpedR S T Fe b (Cert.Dtw.qrow qi q) f * Cert.Dtw.warpedR S T Fe b (Cert.Dtw.qrow qi q) f
      = Cert.Dtw.sumsq S T Fe := by
  unfold Cert.Dtw.sumsq
  rw [Finset.sum_comm]
  refine Finset.sum_congr rfl fun b _ => ?_
  exact sum_rows (fun i => ∑ f : Fin 512, Cert.Dtw.warpedR S T Fe b i f * Cert.Dtw.warpedR S T Fe b i f)

end Cert.Dtw.TileSum

end
-- ==== Proof.Final.lean ====
/-
  The two output arrays after the run, and the second result.

  The first output's block qi is written back once, after the last key tile of query tile qi, and holds the quotient of
  the weighted sum by the normaliser: for real arguments the softmax-weighted sums of rows qi·512 .. qi·512+511. The four
  blocks tile the array. The second output's block qi holds, in each of its 8·128 entries, 1/1024 of the sum of the
  squares of the first output's block qi; the host adds up all 4·8·128 entries, which is the sum of the squares of the
  whole first output, takes the square root and multiplies by a constant.
-/
import proofs.«138027_j7928509629105_2_alg».proof.Proof.Invariant
import proofs.«138027_j7928509629105_2_alg».proof.Proof.TileSum
import Idealize.ShloMosaic.Lib.Pipeline.Value
import Idealize.ShloMosaic.Lib.StableHlo.Run
import Idealize.ShloMosaic.Lib.Tactic

set_option maxRecDepth 16384

noncomputable section
open Idealize.ShloMosaic Idealize.ShloMosaic.TcCoe Idealize.SL.Sem
open Idealize.ShloMosaic.Pipeline (Dat)

namespace Cert.Dtw.Final
open Cert.KernelIdeal Cert.KernelIdeal.Gen Idealize.ShloMosaic.ValueIdx Cert.OnlineSoftmax Cert.Dtw.Payload Cert.Dtw.Cases Cert.Dtw.Invariant Cert.Dtw.TileSum

variable (m : (ℓ : Loc nD τ sig) → Buf (Elt Ideal) ℓ) (ρ : Dev nD → PrngReg) (c : Dev nD)

/-- The first output array: entry (b, i, f) is the softmax-weighted sum of row (b, i) in feature column f. -/
def G3 (S : Fin 8 → Fin 2048 → ℝ) (T : Fin 2048 → ℝ) (Fe : Fin 8 → Fin 2048 → Fin 512 → ℝ) : Buf (Elt Ideal) ((c : Thread nD τ).loc main_v2_0) :=
  fun i => ((warpedR S T Fe ⟨(i 0).val, (i 0).isLt⟩ ⟨(i 1).val, (i 1).isLt⟩ ⟨(i 2).val, (i 2).isLt⟩ : ℝ) : EReal)

/-- The sum of the squares of the first output's rows of query tile qi. -/
def tileSq (S : Fin 8 → Fin 2048 → ℝ) (T : Fin 2048 → ℝ) (Fe : Fin 8 → Fin 2048 → Fin 512 → ℝ) (qi : Fin 4) : ℝ :=
  ∑ b : Fin 8, ∑ q : Fin 512, ∑ f : Fin 512, warpedR S T Fe b (qrow qi q) f * warpedR S T Fe b (qrow qi q) f

/-- The second output array: every entry of block qi is that tile's sum of squares times 1/1024. -/
def G4 (S : Fin 8 → Fin 2048 → ℝ) (T : Fin 2048 → ℝ) (Fe : Fin 8 → Fin 2048 → Fin 512 → ℝ) : Buf (Elt Ideal) ((c : Thread nD τ).loc main_v2_1) :=
  fun i => ((tileSq S T Fe ⟨(i 0).val, (i 0).isLt⟩ : ℝ) : EReal) * Ideal.ofBits .f32 0x3A800000#32

/-- The printed index maps over the grid: the first output's block index is (0, point / 16, 0), the second's (point / 16, 0, 0). -/
theorem idx3 : ∀ t : Fin cfg0.N, win0_3.index t (0 : Fin 3) = 0 ∧ win0_3.index t (1 : Fin 3) = t.val / 16 ∧ win0_3.index t (2 : Fin 3) = 0 :=
  (by decide +kernel : ∀ t : Fin grid0.N, _)
theorem idx4 : ∀ t : Fin cfg0.N, win0_4.index t (0 : Fin 3) = t.val / 16 ∧ win0_4.index t (1 : Fin 3) = 0 ∧ win0_4.index t (2 : Fin 3) = 0 :=
  (by decide +kernel : ∀ t : Fin grid0.N, _)

/-- A write-back point is the last key tile of its query tile. -/
theorem point_of_flush (t : Fin cfg0.N) (h15 : t.val % 16 = 15) :
    ∃ (qi : Fin 4) (h : qi.val * 16 + 15 < cfg0.N), t = ⟨qi.val * 16 + 15, h⟩ := by
  have hN : cfg0.N = 64 := N_0
  have ht := t.isLt
  refine ⟨⟨t.val / 16, by omega⟩, by show t.val / 16 * 16 + 15 < cfg0.N; omega, Fin.ext ?_⟩
  show t.val = t.val / 16 * 16 + 15
  omega

/-! ## The first output -/

theorem flushed3_eq (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal))
    (t : Fin cfg0.N) (hf : (cfg0.win 3).flush t = true) :
    (dats m 0 c).flushed 3 t = ((cfg0.win 3).blk t).view.read (Elt Ideal) (G3 c S T Fe) := by
  have hN : cfg0.N = 64 := N_0
  have h15 : t.val % 16 = 15 := (flush0_3 t).mp hf
  obtain ⟨qi, h, rfl⟩ := point_of_flush t h15
  show (cfg0.win 3).cut (grid0.coords ⟨qi.val * 16 + 15, h⟩) ((dats m 0 c).after 3 ⟨qi.val * 16 + 15, h⟩) = _
  rw [after0_3, (outs_C m c ⟨qi.val * 16 + 15, h⟩ (by show ¬(qi.val * 16 + 15) % 16 = 0; omega) h15).1]
  funext y
  show k0_pay3 (accAt m c (qi.val * 16 + 15) h) (lAt m c (qi.val * 16 + 15) h) y
    = G3 c S T Fe (((cfg0.win 3).blk ⟨qi.val * 16 + 15, h⟩).view.emb y)
  obtain ⟨b, q, f, rfl⟩ : ∃ (b : Fin 8) (q : Fin 512) (f : Fin 512), y = ix3 b q f := ⟨y 0, y 1, y 2, eq_ix3 y⟩
  rw [pay3_apply, quotient_eq m c S T Fe h0 h1 h2 qi h b q f]
  have hemb : ((cfg0.win 3).blk ⟨qi.val * 16 + 15, h⟩).view.emb (ix3 b q f) = ix3 b (qrow qi q) f := by
    obtain ⟨i0, i1, i2⟩ := idx3 ⟨qi.val * 16 + 15, h⟩
    have hq : (qi.val * 16 + 15) / 16 = qi.val := by omega
    funext a; apply Fin.ext
    match a with
    | ⟨0, _⟩ => show win0_3.index ⟨qi.val * 16 + 15, h⟩ (0 : Fin 3) * 8 + 1 * b.val = b.val; rw [i0]; omega
    | ⟨1, _⟩ => show win0_3.index ⟨qi.val * 16 + 15, h⟩ (1 : Fin 3) * 512 + 1 * q.val = qi.val * 512 + q.val; rw [i1]; show (qi.val * 16 + 15) / 16 * 512 + 1 * q.val = _; rw [hq]; omega
    | ⟨2, _⟩ => show win0_3.index ⟨qi.val * 16 + 15, h⟩ (2 : Fin 3) * 512 + 1 * f.val = f.val; rw [i2]; omega
  rw [hemb]
  rfl

theorem mem_blk3 (t : Fin cfg0.N) (i : S8x2048x512.Idx) :
    i ∈ ((cfg0.win 3).blk t).view.set ↔ ∀ a : Fin 3, win0_3.index t a * S8x512x512.size a ≤ (i a).val ∧ (i a).val < win0_3.index t a * S8x512x512.size a + S8x512x512.size a := by
  show i ∈ ((View.whole main_v2_0).slice (win0_3.rect t)).set ↔ _
  rw [View.set_slice_whole, Rect.mem_set_unit]
  exact Iff.rfl

theorem cover3 (i : S8x2048x512.Idx) : ∃ t : Fin cfg0.N, (cfg0.win 3).flush t = true ∧ i ∈ ((cfg0.win 3).blk t).view.set := by
  have hN : cfg0.N = 64 := N_0
  have hi0 : (i 0).val < 8 := (i 0).isLt
  have hi1 : (i 1).val < 2048 := (i 1).isLt
  have hi2 : (i 2).val < 512 := (i 2).isLt
  have ht : (i 1).val / 512 * 16 + 15 < cfg0.N := by omega
  refine ⟨⟨(i 1).val / 512 * 16 + 15, ht⟩, (flush0_3 _).mpr (by show ((i 1).val / 512 * 16 + 15) % 16 = 15; omega), ?_⟩
  rw [mem_blk3]
  obtain ⟨i0, i1, i2⟩ := idx3 ⟨(i 1).val / 512 * 16 + 15, ht⟩
  have hq : ((i 1).val / 512 * 16 + 15) / 16 = (i 1).val / 512 := by omega
  intro a
  match a with
  | ⟨0, _⟩ => show win0_3.index _ (0 : Fin 3) * 8 ≤ (i 0).val ∧ (i 0).val < win0_3.index _ (0 : Fin 3) * 8 + 8; rw [i0]; omega
  | ⟨1, _⟩ => show win0_3.index _ (1 : Fin 3) * 512 ≤ (i 1).val ∧ (i 1).val < win0_3.index _ (1 : Fin 3) * 512 + 512; rw [i1]; show ((i 1).val / 512 * 16 + 15) / 16 * 512 ≤ _ ∧ _ < ((i 1).val / 512 * 16 + 15) / 16 * 512 + 512; rw [hq]; omega
  | ⟨2, _⟩ => show win0_3.index _ (2 : Fin 3) * 512 ≤ (i 2).val ∧ (i 2).val < win0_3.index _ (2 : Fin 3) * 512 + 512; rw [i2]; omega

/-- The first output array after the run. -/
theorem final3 (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal)) :
    (dats m 0 c).arrAt 3 cfg0.N = G3 c S T Fe :=
  (dats m 0 c).arrAt_eq_of_cover 3 (G3 c S T Fe) (flushed3_eq m c S T Fe h0 h1 h2) cover3

/-! ## The second output -/

theorem flushed4_eq (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal))
    (t : Fin cfg0.N) (hf : (cfg0.win 4).flush t = true) :
    (dats m 0 c).flushed 4 t = ((cfg0.win 4).blk t).view.read (Elt Ideal) (G4 c S T Fe) := by
  have hN : cfg0.N = 64 := N_0
  have h15 : t.val % 16 = 15 := (flush0_4 t).mp hf
  obtain ⟨qi, h, rfl⟩ := point_of_flush t h15
  show (cfg0.win 4).cut (grid0.coords ⟨qi.val * 16 + 15, h⟩) ((dats m 0 c).after 4 ⟨qi.val * 16 + 15, h⟩) = _
  rw [after0_4, (outs_C m c ⟨qi.val * 16 + 15, h⟩ (by show ¬(qi.val * 16 + 15) % 16 = 0; omega) h15).2]
  funext y
  show k0_pay4 (accAt m c (qi.val * 16 + 15) h) (lAt m c (qi.val * 16 + 15) h) y
    = G4 c S T Fe (((cfg0.win 4).blk ⟨qi.val * 16 + 15, h⟩).view.emb y)
  obtain ⟨z, r, l, rfl⟩ : ∃ (z : Fin 1) (r : Fin 8) (l : Fin 128), y = ix3 z r l := ⟨y 0, y 1, y 2, eq_ix3 y⟩
  obtain rfl : z = 0 := Subsingleton.elim _ _
  rw [pay4_apply]
  have hsum : (∑ b : Fin 8, ∑ q : Fin 512, ∑ f : Fin 512,
        k0_pay3 (accAt m c (qi.val * 16 + 15) h) (lAt m c (qi.val * 16 + 15) h) (ix3 b q f)
          * k0_pay3 (accAt m c (qi.val * 16 + 15) h) (lAt m c (qi.val * 16 + 15) h) (ix3 b q f))
      = ((tileSq S T Fe qi : ℝ) : EReal) := by
    unfold tileSq
    rw [coe_sum]
    refine Finset.sum_congr rfl fun b _ => ?_
    rw [coe_sum]
    refine Finset.sum_congr rfl fun q _ => ?_
    rw [coe_sum]
    refine Finset.sum_congr rfl fun f _ => ?_
    rw [pay3_apply, quotient_eq m c S T Fe h0 h1 h2 qi h b q f, EReal.coe_mul]
  rw [hsum]
  have hemb0 : ((((cfg0.win 4).blk ⟨qi.val * 16 + 15, h⟩).view.emb (ix3 (0 : Fin 1) r l)) 0).val = qi.val := by
    obtain ⟨i0, -, -⟩ := idx4 ⟨qi.val * 16 + 15, h⟩
    show win0_4.index ⟨qi.val * 16 + 15, h⟩ (0 : Fin 3) * 1 + 1 * 0 = qi.val
    rw [i0]; show (qi.val * 16 + 15) / 16 * 1 + 1 * 0 = _; omega
  unfold G4
  have hq : (⟨((((cfg0.win 4).blk ⟨qi.val * 16 + 15, h⟩).view.emb (ix3 (0 : Fin 1) r l)) 0).val, ((((cfg0.win 4).blk ⟨qi.val * 16 + 15, h⟩).view.emb (ix3 (0 : Fin 1) r l)) 0).isLt⟩ : Fin 4) = qi := Fin.ext hemb0
  rw [hq]

theorem mem_blk4 (t : Fin cfg0.N) (i : S4x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v2_1).slice (win0_4.rect t)).set ↔ _
  rw [View.set_slice_whole, Rect.mem_set_unit]
  exact Iff.rfl

theorem cover4 (i : S4x8x128.Idx) : ∃ t : Fin cfg0.N, (cfg0.win 4).flush t = true ∧ i ∈ ((cfg0.win 4).blk t).view.set := by
  have hN : cfg0.N = 64 := N_0
  have hi0 : (i 0).val < 4 := (i 0).isLt
  have hi1 : (i 1).val < 8 := (i 1).isLt
  have hi2 : (i 2).val < 128 := (i 2).isLt
  have ht : (i 0).val * 16 + 15 < cfg0.N := by omega
  refine ⟨⟨(i 0).val * 16 + 15, ht⟩, (flush0_4 _).mpr (by show ((i 0).val * 16 + 15) % 16 = 15; omega), ?_⟩
  rw [mem_blk4]
  obtain ⟨i0, i1, i2⟩ := idx4 ⟨(i 0).val * 16 + 15, ht⟩
  have hq : ((i 0).val * 16 + 15) / 16 = (i 0).val := by omega
  intro a
  match a with
  | ⟨0, _⟩ => show win0_4.index _ (0 : Fin 3) * 1 ≤ (i 0).val ∧ (i 0).val < win0_4.index _ (0 : Fin 3) * 1 + 1; rw [i0]; show ((i 0).val * 16 + 15) / 16 * 1 ≤ _ ∧ _ < ((i 0).val * 16 + 15) / 16 * 1 + 1; rw [hq]; omega
  | ⟨1, _⟩ => show win0_4.index _ (1 : Fin 3) * 8 ≤ (i 1).val ∧ (i 1).val < win0_4.index _ (1 : Fin 3) * 8 + 8; rw [i1]; omega
  | ⟨2, _⟩ => show win0_4.index _ (2 : Fin 3) * 128 ≤ (i 2).val ∧ (i 2).val < win0_4.index _ (2 : Fin 3) * 128 + 128; rw [i2]; omega

/-- The second output array after the run. -/
theorem final4 (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal)) :
    (dats m 0 c).arrAt 4 cfg0.N = G4 c S T Fe :=
  (dats m 0 c).arrAt_eq_of_cover 4 (G4 c S T Fe) (flushed4_eq m c S T Fe h0 h1 h2) cover4

end Cert.Dtw.Final
end
-- ==== Proof.Result.lean ====
/-
  The kernel's run, read: for real arguments the first result array holds the softmax-weighted sums and the second
  result is the common scalar function of the sum of their squares.
-/
import proofs.«138027_j7928509629105_2_alg».proof.Proof.Final
import Idealize.ShloMosaic.Lib.Pipeline.Value
import Idealize.ShloMosaic.Lib.StableHlo.Run
import Idealize.ShloMosaic.Lib.Tactic

set_option maxRecDepth 16384

noncomputable section
open Idealize.ShloMosaic Idealize.ShloMosaic.TcCoe Idealize.SL.Sem
open Idealize.ShloMosaic.Pipeline (Dat)

namespace Cert.Dtw.Result
open Cert.KernelIdeal Cert.KernelIdeal.Gen Idealize.ShloMosaic.ValueIdx Cert.Dtw.Final Cert.Dtw.TileSum

variable (m : (ℓ : Loc nD τ sig) → Buf (Elt Ideal) ℓ) (ρ : Dev nD → PrngReg) (c : Dev nD)

/-- The host operations after the region add up the second output array, whose 4·8·128 entries are 1/1024 of the four
    tiles' sums of squares: the sum of the squares of the whole first output. -/
theorem tail_eq (S : Fin 8 → Fin 2048 → ℝ) (T : Fin 2048 → ℝ) (Fe : Fin 8 → Fin 2048 → Fin 512 → ℝ)
    (h0 : ∀ b i, m ((c : Thread nD τ).loc main_arg0) (ix3 b i (0 : Fin 1)) = ((S b i : ℝ) : EReal))
    (h1 : ∀ b j f, m ((c : Thread nD τ).loc main_arg1) (ix3 b j f) = ((Fe b j f : ℝ) : EReal))
    (h2 : ∀ j, m ((c : Thread nD τ).loc main_arg2) (ix3 (0 : Fin 1) j (0 : Fin 1)) = ((T j : ℝ) : EReal)) :
    Pipeline.afterTail₀ cfgs (dats m) 0 (V0 m) [hostOps1] c main_v5
      = Cert.Dtw.tail (fun _ => ((sumsq S T Fe : ℝ) : EReal)) := by
  have e4 : Pipeline.withArrays spec0 c (V0 m c) (fun w => (dats m 0 c).arrAt w cfg0.N) (Proc.devRef .tc main_v2_1)
      = G4 c S T Fe :=
    (Pipeline.withArrays_arr spec0 launch0.win.arr_inj c _ _ 4).trans (final4 m c S T Fe h0 h1 h2)
  unfold Pipeline.afterTail₀
  show StableHlo.after hostOps1 _ (Proc.devRef .tc main_v5) = _
  after_results
  rw [e4, host_total (G4 c S T Fe) (tileSq S T Fe) (fun qi r l => rfl)]
  have hs : (∑ qi, tileSq S T Fe qi) = sumsq S T Fe := sumsq_tiles S T Fe
  rw [hs]
  rfl

/-- Every weakly fair execution of the kernel's program terminates with the first result at the softmax-weighted sums,
    the second at the common function of the sum of their squares, and the arguments unchanged. -/
theorem run (Sc : Dev nD → Fin 8 → Fin 2048 → ℝ) (Tc : Dev nD → Fin 2048 → ℝ) (Fc : Dev nD → Fin 8 → Fin 2048 → Fin 512 → ℝ)
    (h0 : ∀ (c : Dev nD) b i, m ((c : Thread nD τ).loc main_arg0) (ix3 b i (0 : Fin 1)) = ((Sc c b i : ℝ) : EReal))
    (h1 : ∀ (c : Dev nD) b j f, m ((c : Thread nD τ).loc main_arg1) (ix3 b j f) = ((Fc c b j f : ℝ) : EReal))
    (h2 : ∀ (c : Dev nD) j, m ((c : Thread nD τ).loc main_arg2) (ix3 (0 : Fin 1) j (0 : Fin 1)) = ((Tc c j : ℝ) : EReal)) :
    θ_run defs (onTc (τ := τ) (main (F := Ideal))) ⟨m, fun _ => 0, ρ⟩ fun r => ∀ c : Dev nD,
      r.2.mem ((c : Thread nD τ).loc main_v2_0) = G3 c (Sc c) (Tc c) (Fc c)
      ∧ r.2.mem ((c : Thread nD τ).loc main_v5) = Cert.Dtw.tail (fun _ => ((sumsq (Sc c) (Tc c) (Fc c) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).1 3).trans (final3 m c (Sc c) (Tc c) (Fc c) (h0 c) (h1 c) (h2 c)),
     ((h c).2 main_v5 (Pipeline.mem_restRefs_of main_v5 (by decide) (by decide))).trans
       (tail_eq m c (Sc c) (Tc c) (Fc c) (h0 c) (h1 c) (h2 c)),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.Dtw.Result
end
-- ==== Proof.RefSide.lean ====
/-
  The reference program, read over the reals.

  Under real-valued arguments S (scores), T (template) and Fe (features) the reference computes, for every row
  (b, i), the distances d j = |S b i - T j| to the template positions, their maximum D, the shifted scores
  -(d j) - D, a plain softmax of these (maximum subtracted, exponentials normalised) and the weighted sum of
  column f of the feature rows. That is the softmax-weighted sum with scores -(d j): the constant D cancels. The
  second result is a fixed scalar function of the sum of the squares of all these weighted sums.
-/
import proofs.«138027_j7928509629105_2_alg».proof.Proof.Gen.ReferenceIdeal.Read
import proofs.«138027_j7928509629105_2_alg».proof.Proof.Spec
import Idealize.ShloMosaic.Lib.ValueIdx

noncomputable section

namespace Cert.Dtw.Ref

open Idealize.ShloMosaic Idealize.ShloMosaic.ValueIdx Cert.OnlineSoftmax
open Cert.ReferenceIdeal Cert.ReferenceIdeal.Gen Cert.ReferenceIdeal.Read

/-- The word 0xFF800000 is -∞. -/
theorem ofBits_neg_inf_f32 : Ideal.ofBits .f32 0xFF800000#32 = (⊥ : EReal) := by
  simp [Ideal.ofBits, Ideal.ieee]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Row

variable (x0 : (⟨S8x2048x1, .f32⟩ : BufTy).Contents (Elt Ideal)) (x1 : (⟨S8x2048x512, .f32⟩ : BufTy).Contents (Elt Ideal))
  (x2 : (⟨S1x2048x1, .f32⟩ : BufTy).Contents (Elt Ideal))
  (S : Fin 8 → Fin 2048 → ℝ) (T : Fin 2048 → ℝ) (Fe : Fin 8 → Fin 2048 → Fin 512 → ℝ)

/-- The difference of a score and a template entry. -/
theorem v6_at (h0 : ∀ b i, x0 (ix3 b i (0 : Fin 1)) = ((S b i : ℝ) : EReal))
    (h2 : ∀ j, x2 (ix3 (0 : Fin 1) j (0 : Fin 1)) = ((T j : ℝ) : EReal)) (b : Fin 8) (i j : Fin 2048) :
    val_main_v6 (F := Ideal) x0 x2 (ix3 b i j) = ((S b i - T j : ℝ) : EReal) := by
  rw [val_main_v6_apply, val_main_v4_apply, val_main_v1_apply, val_main_v0_apply, val_main_v5_apply, val_main_v3_apply,
    val_main_v2_apply]
  have e0 : idx_main_v0 (idx_main_v1 (idx_main_v4 (ix3 b i j))) = ix3 b i (0 : Fin 1) := funext fun a => Fin.ext (by
    have hb := b.isLt; have hi := i.isLt
    match a with
    | ⟨0, _⟩ => show (b.val * 2048 + i.val) / 2048 = b.val; omega
    | ⟨1, _⟩ => show (b.val * 2048 + i.val) / 1 % 2048 = i.val; omega
    | ⟨2, _⟩ => rfl)
  have e2 : idx_main_v2 (idx_main_v3 (idx_main_v5 (ix3 b i j))) = ix3 (0 : Fin 1) j (0 : Fin 1) := funext fun a => Fin.ext (by
    have hj := j.isLt
    match a with
    | ⟨0, _⟩ => rfl
    | ⟨1, _⟩ => show j.val / 1 % 2048 = j.val; omega
    | ⟨2, _⟩ => rfl)
  rw [e0, e2, h0, h2]
  show ((S b i : ℝ) : EReal) - ((T j : ℝ) : EReal) = _
  rw [← EReal.coe_sub]

/-- The distance of a score to a template entry. -/
theorem v7_at (h0 : ∀ b i, x0 (ix3 b i (0 : Fin 1)) = ((S b i : ℝ) : EReal))
    (h2 : ∀ j, x2 (ix3 (0 : Fin 1) j (0 : Fin 1)) = ((T j : ℝ) : EReal)) (b : Fin 8) (i j : Fin 2048) :
    val_main_v7 (F := Ideal) x0 x2 (ix3 b i j) = ((|S b i - T j| : ℝ) : EReal) := by
  rw [val_main_v7_apply, v6_at x0 x2 S T h0 h2]
  show max ((S b i - T j : ℝ) : EReal) (-((S b i - T j : ℝ) : EReal)) = _
  rw [← EReal.coe_neg, coe_max, abs_eq_max_neg]

/-- The shapes of a reduction over the last axis of a row array. -/
theorem red2 : S8x2048x2048.Reduces [2] S8x2048 := by decide

/-- Row (b, i) with the coordinate k inserted on the last axis is the index (b, i, k). -/
theorem lift_row (b : Fin 8) (i k : Fin 2048) : red2.lift (ix2 b i) k = ix3 b i k := funext fun a => Fin.ext (by
  match a with
  | ⟨0, _⟩ => rfl
  | ⟨1, _⟩ => rfl
  | ⟨2, _⟩ => rfl)

/-- A maximum over the last axis, from -∞, of an array that reads g k at (b, i, k) is the fold of max over g. -/
theorem rowmax_at (y : (⟨S8x2048x2048, .f32⟩ : BufTy).Contents (Elt Ideal)) (init : (⟨S_, .f32⟩ : BufTy).Contents (Elt Ideal))
    (hinit : ∀ q, init q = (⊥ : EReal)) (b : Fin 8) (i : Fin 2048) (g : Fin 2048 → EReal) (hy : ∀ k, y (ix3 b i k) = g k) :
    Host.reduce (FloatOps.maximumf (F := Ideal) (φ := .f32)) y init reducesTo_S8x2048x2048_S8x2048_d2 h_S_ (ix2 b i)
      = (Finset.univ : Finset (Fin 2048)).fold max ⊥ g := by
  rw [Host.reduce_eq_fold_single (FloatOps.maximumf (F := Ideal) (φ := .f32)) y init reducesTo_S8x2048x2048_S8x2048_d2 red2 h_S_ (ix2 b i), hinit]
  have hf : (y ∘ red2.lift (ix2 b i)) = g := funext fun k => by
    exact (congrArg y (lift_row b i k)).trans (hy k)
  rw [hf]
  rfl

/-- The largest distance of row (b, i). -/
theorem v9_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) :
    val_main_v9 (F := Ideal) x0 x2 (ix2 b i)
      = (Finset.univ : Finset (Fin 2048)).fold max ⊥ (fun k => ((|S b i - T k| : ℝ) : EReal)) := by
  unfold val_main_v9
  exact rowmax_at _ _ (fun _ => ofBits_neg_inf_f32) b i _ (fun k => v7_at x0 x2 S T h0 h2 b i k)

/-- The shifted score: minus the distance, minus the row's largest distance D. -/
theorem v12_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal))
    (j : Fin 2048) :
    val_main_v12 (F := Ideal) x0 x2 (ix3 b i j) = ((-|S b i - T j| - D : ℝ) : EReal) := by
  rw [val_main_v12_apply, val_main_v8_apply, v7_at x0 x2 S T h0 h2, val_main_v11_apply, val_main_v10_apply]
  have e : idx_main_v10 (idx_main_v11 (ix3 b i j)) = ix2 b i := funext fun a => by
    match a with
    | ⟨0, _⟩ => rfl
    | ⟨1, _⟩ => rfl
  rw [e, v9_at x0 x2 S T h0 h2, hD]
  show -((|S b i - T j| : ℝ) : EReal) - ((D : ℝ) : EReal) = _
  rw [← EReal.coe_neg, ← EReal.coe_sub]

/-- The largest shifted score of row (b, i), folded from -∞. -/
theorem v13_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal)) :
    val_main_v13 (F := Ideal) x0 x2 (ix2 b i)
      = (Finset.univ : Finset (Fin 2048)).fold max ⊥ (fun k => ((-|S b i - T k| - D : ℝ) : EReal)) := by
  unfold val_main_v13
  exact rowmax_at _ _ (fun _ => ofBits_neg_inf_f32) b i _ (fun k => v12_at x0 x2 S T h0 h2 b i D hD k)

/-- The same maximum taken once more against -∞. -/
theorem v15_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal)) :
    val_main_v15 (F := Ideal) x0 x2 (ix2 b i)
      = max ⊥ ((Finset.univ : Finset (Fin 2048)).fold max ⊥ (fun k => ((-|S b i - T k| - D : ℝ) : EReal))) := by
  rw [val_main_v15_apply, val_main_v14_apply, val_main_cst_1_apply, v13_at x0 x2 S T h0 h2 b i D hD]
  show max (Ideal.ofBits .f32 0xFF800000#32) _ = _
  rw [ofBits_neg_inf_f32]

/-- The exponential of a shifted score minus the row's maximum. -/
theorem v19_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal))
    (j : Fin 2048) :
    val_main_v19 (F := Ideal) x0 x2 (ix3 b i j)
      = Ideal.exp (((-|S b i - T j| - D : ℝ) : EReal)
          - max ⊥ ((Finset.univ : Finset (Fin 2048)).fold max ⊥ (fun k => ((-|S b i - T k| - D : ℝ) : EReal)))) := by
  rw [val_main_v19_apply, val_main_v18_apply, v12_at x0 x2 S T h0 h2 b i D hD, val_main_v17_apply, val_main_v16_apply]
  have e : idx_main_v16 (idx_main_v17 (ix3 b i j)) = ix2 b i := funext fun a => by
    match a with
    | ⟨0, _⟩ => rfl
    | ⟨1, _⟩ => rfl
  rw [e, v15_at x0 x2 S T h0 h2 b i D hD, Ideal.hostUnary_exp_def, Ideal.subf_def]

/-- The normaliser of row (b, i): zero plus the sum of the exponentials. -/
theorem v20_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal)) :
    val_main_v20 (F := Ideal) x0 x2 (ix2 b i)
      = 0 + ∑ u : Fin 2048, Ideal.exp (((-|S b i - T u| - D : ℝ) : EReal)
          - max ⊥ ((Finset.univ : Finset (Fin 2048)).fold max ⊥ (fun k => ((-|S b i - T k| - D : ℝ) : EReal)))) := by
  rw [val_main_v20_apply, val_main_cst_2_apply]
  show Ideal.ofBits .f32 0x00000000#32 + _ = _
  rw [Ideal.ofBits_zero_f32]
  refine congrArg (0 + ·) (Finset.sum_congr rfl fun u _ => ?_)
  have e : idx_main_v20 (ix2 b i) u = ix3 b i u := funext fun a => by
    match a with
    | ⟨0, _⟩ => rfl
    | ⟨1, _⟩ => rfl
    | ⟨2, _⟩ => rfl
  rw [e, v19_at x0 x2 S T h0 h2 b i D hD]

/-- The normalised weight of template position j in row (b, i). -/
theorem v23_at (h0 : ∀ b i, x0 (ix3 b i (0 : Fin 1)) = ((S b i : ℝ) : EReal))
    (h2 : ∀ j, x2 (ix3 (0 : Fin 1) j (0 : Fin 1)) = ((T j : ℝ) : EReal)) (b : Fin 8) (i : Fin 2048) (D : ℝ)
    (hD : (Finset.univ : Finset (Fin 2048)).fold max ⊥ (fun k => ((|S b i - T k| : ℝ) : EReal)) = ((D : ℝ) : EReal))
    (j : Fin 2048) :
    val_main_v23 (F := Ideal) x0 x2 (ix3 b i j)
      = Ideal.div
          (Ideal.exp (((-|S b i - T j| - D : ℝ) : EReal)
            - max ⊥ ((Finset.univ : Finset (Fin 2048)).fold max ⊥ (fun k => ((-|S b i - T k| - D : ℝ) : EReal)))))
          (0 + ∑ u : Fin 2048, Ideal.exp (((-|S b i - T u| - D : ℝ) : EReal)
            - max ⊥ ((Finset.univ : Finset (Fin 2048)).fold max ⊥ (fun k => ((-|S b i - T k| - D : ℝ) : EReal))))) := by
  rw [val_main_v23_apply, v19_at x0 x2 S T h0 h2 b i D hD, val_main_v22_apply, val_main_v21_apply]
  have e : idx_main_v21 (idx_main_v22 (ix3 b i j)) = ix2 b i := funext fun a => by
    match a with
    | ⟨0, _⟩ => rfl
    | ⟨1, _⟩ => rfl
  rw [e, v20_at x0 x2 S T h0 h2 b i D hD, Ideal.hostDivf_def]

/-- THE FIRST RESULT at (b, i, f) is the softmax-weighted sum with scores minus the distances and values column f of
    the feature rows. -/
theorem ref_warped (h0 : ∀ b i, x0 (ix3 b i (0 : Fin 1)) = ((S b i : ℝ) : EReal))
    (h1 : ∀ b j f, x1 (ix3 b j f) = ((Fe b j f : ℝ) : EReal))
    (h2 : ∀ j, x2 (ix3 (0 : Fin 1) j (0 : Fin 1)) = ((T j : ℝ) : EReal)) (b : Fin 8) (i : Fin 2048) (f : Fin 512) :
    val_main_v24 (F := Ideal) x0 x1 x2 (ix3 b i f) = ((Cert.Dtw.warpedR S T Fe b i f : ℝ) : EReal) := by
  obtain ⟨D, hD⟩ := fold_max_coe_of_nonempty (Finset.univ_nonempty (α := Fin 2048)) (fun k => |S b i - T k|)
  have hrow : val_main_v24 (F := Ideal) x0 x1 x2 (ix3 b i f)
      = refRow (fun t : Fin 2048 => ((-|S b i - T t| - D : ℝ) : EReal)) (fun t => ((Fe b t f : ℝ) : EReal)) := by
    rw [val_main_v24_apply]
    unfold refRow
    refine Finset.sum_congr rfl fun k _ => ?_
    have el : lidx_main_v24 (ix3 b i f) k = ix3 b i k := funext fun a => by
      match a with
      | ⟨0, _⟩ => rfl
      | ⟨1, _⟩ => rfl
      | ⟨2, _⟩ => rfl
    have er : ridx_main_v24 (ix3 b i f) k = ix3 b k f := funext fun a => by
      match a with
      | ⟨0, _⟩ => rfl
      | ⟨1, _⟩ => rfl
      | ⟨2, _⟩ => rfl
    rw [el, er, v23_at x0 x2 S T h0 h2 b i D hD, h1]
  rw [hrow]
  have hw := refRow_eq_wsum (N := 2048) (by norm_num) (fun t => -|S b i - T t| - D) (fun t => Fe b t f)
  have hs := wsum_shift (N := 2048) (by norm_num) (fun t => -|S b i - T t|) (fun t => Fe b t f) D
  exact hw.trans (congrArg (fun r : ℝ => (r : EReal)) hs)

/-- The sum of the squares of all entries of the first result. -/
theorem v26_eq (h0 : ∀ b i, x0 (ix3 b i (0 : Fin 1)) = ((S b i : ℝ) : EReal))
    (h1 : ∀ b j f, x1 (ix3 b j f) = ((Fe b j f : ℝ) : EReal))
    (h2 : ∀ j, x2 (ix3 (0 : Fin 1) j (0 : Fin 1)) = ((T j : ℝ) : EReal)) :
    val_main_v26 (F := Ideal) x0 x1 x2 = fun _ => ((Cert.Dtw.sumsq S T Fe : ℝ) : EReal) := by
  funext q
  rw [val_main_v26_apply, val_main_cst_3_apply]
  show Ideal.ofBits .f32 0x00000000#32 + _ = _
  rw [Ideal.ofBits_zero_f32, zero_add, sum_idx3]
  unfold Cert.Dtw.sumsq
  rw [coe_sum]
  refine Finset.sum_congr rfl fun b _ => ?_
  rw [coe_sum]
  refine Finset.sum_congr rfl fun i _ => ?_
  rw [coe_sum]
  refine Finset.sum_congr rfl fun f _ => ?_
  rw [val_main_v25_apply, ref_warped x0 x1 x2 S T Fe h0 h1 h2 b i f]
  show ((Cert.Dtw.warpedR S T Fe b i f : ℝ) : EReal) * ((Cert.Dtw.warpedR S T Fe b i f : ℝ) : EReal) = _
  rw [← EReal.coe_mul]

/-- THE SECOND RESULT is the fixed scalar function of the sum of squares. -/
theorem ref_l2 (h0 : ∀ b i, x0 (ix3 b i (0 : Fin 1)) = ((S b i : ℝ) : EReal))
    (h1 : ∀ b j f, x1 (ix3 b j f) = ((Fe b j f : ℝ) : EReal))
    (h2 : ∀ j, x2 (ix3 (0 : Fin 1) j (0 : Fin 1)) = ((T j : ℝ) : EReal)) :
    val_main_v28 (F := Ideal) x0 x1 x2 = Cert.Dtw.tail (fun _ => ((Cert.Dtw.sumsq S T Fe : ℝ) : EReal)) := by
  unfold val_main_v28 val_main_v27 val_main_cst_4 Cert.Dtw.tail
  rw [v26_eq x0 x1 x2 S T Fe h0 h1 h2]

end Row

end Cert.Dtw.Ref

end
-- ==== Proof.LibFiniteEntries.lean ====
/-
  Entries of finite magnitude are real numbers. An extended real x whose magnitude max x (−x) is strictly below +∞
  is neither +∞ nor −∞, so it is a real number. A precondition that says this of every entry of an array — the
  conjunction, over all entries, of the comparison |x| < +∞ — therefore makes every entry of the array real.
-/
import Idealize.ShloMosaic.PureOps.Ideal.Laws
import Idealize.ShloMosaic.Lib.ValueIdx
import Idealize.ShloMosaic.Lib.ReduceAll

namespace Idealize.ShloMosaic.FiniteEntries

open Idealize.ShloMosaic

/-- The word 0x7F800000 is +∞. -/
theorem ofBits_inf_f32 : Ideal.ofBits .f32 0x7F800000#32 = (⊤ : EReal) := by
  simp [Ideal.ofBits, Ideal.ieee]

/-- An extended real whose magnitude is strictly below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- The comparison bit of |x| < +∞ being one makes x real. -/
theorem real_of_cmp (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf_f32] at h
  refine real_of_abs_lt_top x ?_
  have h' : Ideal.cmp .olt (max x (-x)) ⊤ = 1#1 := h
  unfold Ideal.cmp at h'
  by_contra hlt
  simp [hlt] at h'

end Idealize.ShloMosaic.FiniteEntries
-- ==== Proof.FiniteArgs.lean ====
/-
  Under the precondition every argument entry is a real number.

  The precondition is the conjunction, over the three argument arrays and over every entry x of each, of the
  comparison |x| < +∞. An extended real of finite magnitude is a real number, so each array is the coercion of an
  array of reals; the reals are named here: S for the scores, Fe for the features, T for the template.
-/
import proofs.«138027_j7928509629105_2_alg».proof.Defs
import proofs.«138027_j7928509629105_2_alg».proof.Proof.LibFiniteEntries
import Idealize.ShloMosaic.Lib.ReduceAll
import Idealize.ShloMosaic.Lib.ValueIdx

noncomputable section

namespace Cert.Dtw.Fin

open Idealize.ShloMosaic Idealize.ShloMosaic.ValueIdx Idealize.ShloMosaic.FiniteEntries

/-- The scalar shape has one index. -/
instance : Subsingleton Cert.Pre_finite_inputs.S_.Idx := ⟨fun a b => funext fun d => d.elim0⟩

/-- An array whose entries all compare, in magnitude, strictly below +∞ (the conjunction over all entries being one)
    has only real entries. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x) (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, x i = ((r : ℝ) : EReal) := by
  have e := Host.reduce_andi_all _ _ hr hu ix0 h i
  exact real_of_cmp (x i) e

/-- From the precondition: the three argument arrays are the coercions of real arrays S, Fe, T. -/
theorem reals_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ (S : Fin 8 → Fin 2048 → ℝ) (T : Fin 2048 → ℝ) (Fe : Fin 8 → Fin 2048 → Fin 512 → ℝ),
      (∀ b i, m ((c.tc : Thread Cert.KernelIdeal.nD Cert.KernelIdeal.τ).loc Cert.KernelIdeal.main_arg0) (ix3 b i (0 : Fin 1)) = ((S b i : ℝ) : EReal))
      ∧ (∀ b j f, m ((c.tc : Thread Cert.KernelIdeal.nD Cert.KernelIdeal.τ).loc Cert.KernelIdeal.main_arg1) (ix3 b j f) = ((Fe b j f : ℝ) : EReal))
      ∧ (∀ j, m ((c.tc : Thread Cert.KernelIdeal.nD Cert.KernelIdeal.τ).loc Cert.KernelIdeal.main_arg2) (ix3 (0 : Fin 1) j (0 : Fin 1)) = ((T j : ℝ) : EReal)) := by
  have h := congrFun (hpre c) ix0
  dsimp only [Cert.Pre_finite_inputs.fn] at h
  obtain ⟨h01, h2⟩ := IntOp.andi_eq_one.1 h
  obtain ⟨h0, h1⟩ := IntOp.andi_eq_one.1 h01
  have r0 := real_of_all _ _ _ _ h0
  have r1 := real_of_all _ _ _ _ h1
  have r2 := real_of_all _ _ _ _ h2
  choose S hS using fun (b : Fin 8) (i : Fin 2048) => r0 (ix3 b i (0 : Fin 1))
  choose Fe hFe using fun (b : Fin 8) (j : Fin 2048) (f : Fin 512) => r1 (ix3 b j f)
  choose T hT using fun (j : Fin 2048) => r2 (ix3 (0 : Fin 1) j (0 : Fin 1))
  exact ⟨S, T, Fe, hS, hFe, hT⟩

end Cert.Dtw.Fin

end
-- ==== Proof.lean ====
/-
  The certificate of the tile-by-tile softmax-weighted warping kernel against its plain reference.

  The kernel cuts the 2048 query rows into 4 tiles and the 2048 template positions into 16 key tiles; for each query
  tile it walks the key tiles keeping, per row, a running maximum of the scores (minus the distances between the row's
  scalar and the template's scalars), a normaliser and a weighted sum of feature rows, all relative to that maximum, and
  after the last key tile writes the weighted sum over the normaliser, together with 1/1024 of the tile's sum of squares
  spread over an 8 x 128 block that the host adds up. The reference shifts the scores by the row's largest distance, takes
  a plain softmax, multiplies by the feature rows and sums the squares directly.

  For finite (real) arguments both are the softmax-weighted sums of the feature rows: the running maximum and the
  reference's shift cancel between numerator and denominator, dividing the sum or each term by the normaliser is the same
  for real numbers, and 1024 copies of a 1024th add up to the whole. The second result is the same function (square root,
  times one constant) of the same sum of squares on both sides. Finiteness is used: on the extended reals neither the
  cancellation nor the distribution of the quotient over the sum holds at infinities.
-/
import proofs.«138027_j7928509629105_2_alg».proof.Defs
import proofs.«138027_j7928509629105_2_alg».proof.Proof.Gen.Kernel
import proofs.«138027_j7928509629105_2_alg».proof.Proof.Gen.Kernel.Frame
import proofs.«138027_j7928509629105_2_alg».proof.Proof.Gen.KernelIdeal
import proofs.«138027_j7928509629105_2_alg».proof.Proof.Gen.KernelIdeal.Frame
import proofs.«138027_j7928509629105_2_alg».proof.Proof.Gen.ReferenceIdeal
import proofs.«138027_j7928509629105_2_alg».proof.Proof.Gen.Pre_finite_inputs
import proofs.«138027_j7928509629105_2_alg».proof.Proof.Gen.ReferenceIdeal.Run
import proofs.«138027_j7928509629105_2_alg».proof.Proof.Gen.ReferenceIdeal.Read
import proofs.«138027_j7928509629105_2_alg».proof.Proof.Result
import proofs.«138027_j7928509629105_2_alg».proof.Proof.RefSide
import proofs.«138027_j7928509629105_2_alg».proof.Proof.FiniteArgs
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Under the precondition every argument entry is a real number; the kernel's two results are then the softmax-weighted
    sums and the common function of the sum of their squares, and so are the reference's, of arguments that agree. -/
theorem algebraic : Cert.algebraic_KernelIdeal_ReferenceIdeal := by
  intro m ρ m' ρ' hpre hagree
  choose S T Fe h0 h1 h2 using fun c => Cert.Dtw.Fin.reals_of_pre m hpre c
  refine ⟨fun c => Cert.Dtw.Final.G3 c (S c) (T c) (Fe c),
    fun c => Cert.Dtw.tail (fun _ => ((Cert.Dtw.sumsq (S c) (T c) (Fe c) : ℝ) : EReal)),
    Cert.Dtw.Result.run m ρ S T Fe h0 h1 h2, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v24_eq, (hagree c).1, (hagree c).2.1, (hagree c).2.2]
    funext i
    obtain ⟨b, r, f, rfl⟩ : ∃ (b : Fin 8) (r : Fin 2048) (f : Fin 512), i = ix3 b r f := ⟨i 0, i 1, i 2, eq_ix3 i⟩
    exact Cert.Dtw.Ref.ref_warped _ _ _ (S c) (T c) (Fe c) (h0 c) (h1 c) (h2 c) b r f
  · rw [Cert.ReferenceIdeal.Read.val_main_v28_eq, (hagree c).1, (hagree c).2.1, (hagree c).2.2]
    exact Cert.Dtw.Ref.ref_l2 _ _ _ (S c) (T c) (Fe c) (h0 c) (h1 c) (h2 c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
